-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v85)) (v1 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_v103) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S2x500000 : Shape := ⟨2, ![2, 500000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg7 : FVec F S64 .f32) (main_arg8 : FVec F S64x1 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg8
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg9
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : IVec S2x500000 32) (main_arg3 : IVec S2x500000 32) (main_arg4 : FVec F S128x64 .f32) (main_arg5 : FVec F S64 .f32) (main_arg6 : FVec F S64x64 .f32) (main_arg7 : FVec F S64 .f32) (main_arg8 : FVec F S64x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg4
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_v13 main_v16
-- ==== Kernel.lean ====
abbrev S100000x128 : Shape := ⟨2, ![100000, 128]⟩
abbrev S2x3200000 : Shape := ⟨2, ![2, 3200000]⟩
abbrev S2x500000 : Shape := ⟨2, ![2, 500000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S6000x64 : Shape := ⟨2, ![6000, 64]⟩
abbrev S6000x1 : Shape := ⟨2, ![6000, 1]⟩
abbrev S1x64 : Shape := ⟨2, ![1, 64]⟩
abbrev S5000x64 : Shape := ⟨2, ![5000, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S1x1 : Shape := ⟨2, ![1, 1]⟩
abbrev S5000x1 : Shape := ⟨2, ![5000, 1]⟩
abbrev S5000 : Shape := ⟨1, ![5000]⟩

abbrev nBuf : Space → Nat
  | .hbm => 138
  | .vmem => 48
  | .smem => 0
  | _ => 0

abbrev hbmTy0_0 (i : Nat) : BufTy := match i % 128 with
  | 0 => ⟨S100000x128, .f32⟩
  | 1 => ⟨S2x3200000, .i32⟩
  | 2 => ⟨S2x500000, .i32⟩
  | 3 => ⟨S2x500000, .i32⟩
  | 4 => ⟨S128x64, .f32⟩
  | 5 => ⟨S64, .f32⟩
  | 6 => ⟨S64x64, .f32⟩
  | 7 => ⟨S64, .f32⟩
  | 8 => ⟨S64x1, .f32⟩
  | 9 => ⟨S1, .f32⟩
  | 10 => ⟨S100000, .i32⟩
  | 11 => ⟨S1x3200000, .i32⟩
  | 12 => ⟨S3200000, .i32⟩
  | 13 => ⟨S3300000, .i32⟩
  | 14 => ⟨S1x3200000, .i32⟩
  | 15 => ⟨S3200000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S100000x64, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000x64, .f32⟩
  | 60 => ⟨S3300000x1, .f32⟩
  | 61 => ⟨S3300000x64, .f32⟩
  | 62 => ⟨S_, .f32⟩
  | 63 => ⟨S100000x64, .f32⟩
  | 64 => ⟨S3300000x1, .i32⟩
  | 65 => ⟨S100000x64, .f32⟩
  | 66 => ⟨S1x64, .f32⟩
  | 67 => ⟨S100000x64, .f32⟩
  | 68 => ⟨S100000x64, .f32⟩
  | 69 => ⟨S_, .i32⟩
  | 70 => ⟨S3300000, .i32⟩
  | 71 => ⟨S3300000, .i1⟩
  | 72 => ⟨S_, .i32⟩
  | 73 => ⟨S3300000, .i32⟩
  | 74 => ⟨S3300000, .i32⟩
  | 75 => ⟨S3300000, .i32⟩
  | 76 => ⟨S3300000x1, .i32⟩
  | 77 => ⟨S3300000x64, .f32⟩
  | 78 => ⟨S3300000x1, .f32⟩
  | 79 => ⟨S3300000x64, .f32⟩
  | 80 => ⟨S_, .f32⟩
  | 81 => ⟨S100000x64, .f32⟩
  | 82 => ⟨S3300000x1, .i32⟩
  | 83 => ⟨S100000x64, .f32⟩
  | 84 => ⟨S1x64, .f32⟩
  | 85 => ⟨S100000x64, .f32⟩
  | 86 => ⟨S1x500000, .i32⟩
  | 87 => ⟨S500000, .i32⟩
  | 88 => ⟨S1x500000, .i32⟩
  | 89 => ⟨S500000, .i32⟩
  | 90 => ⟨S1x500000, .i32⟩
  | 91 => ⟨S500000, .i32⟩
  | 92 => ⟨S1x500000, .i32⟩
  | 93 => ⟨S500000, .i32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S500000x64, .f32⟩
  | 103 => ⟨S_, .i32⟩
  | 104 => ⟨S500000, .i32⟩
  | 105 => ⟨S500000, .i1⟩
  | 106 => ⟨S_, .i32⟩
  | 107 => ⟨S500000, .i32⟩
  | 108 => ⟨S500000, .i32⟩
  | 109 => ⟨S500000, .i32⟩
  | 110 => ⟨S500000x1, .i32⟩
  | 111 => ⟨S500000x64, .f32⟩
  | 112 => ⟨S1x64, .f32⟩
  | 113 => ⟨S1x1, .f32⟩
  | 114 => ⟨S500000x1, .f32⟩
  | 115 => ⟨S500000, .f32⟩
  | 116 => ⟨S_, .i32⟩
  | 117 => ⟨S500000, .i32⟩
  | 118 => ⟨S500000, .i1⟩
  | 119 => ⟨S_, .i32⟩
  | 120 => ⟨S500000, .i32⟩
  | 121 => ⟨S500000, .i32⟩
  | 122 => ⟨S500000, .i32⟩
  | 123 => ⟨S500000x1, .i32⟩
  | 124 => ⟨S500000x64, .f32⟩
  | 125 => ⟨S_, .i32⟩
  | 126 => ⟨S500000, .i32⟩
  | 127 => ⟨S500000, .i1⟩
  | _ => ⟨S100000x128, .f32⟩

abbrev hbmTy0_1 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000x64, .f32⟩
  | 6 => ⟨S1x64, .f32⟩
  | 7 => ⟨S1x1, .f32⟩
  | 8 => ⟨S500000x1, .f32⟩
  | 9 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S6000x64, .f32⟩
  | .local _ .vmem, ⟨6, _⟩ => ⟨S6000x64, .f32⟩
  | .local _ .vmem, ⟨7, _⟩ => ⟨S6000x1, .f32⟩
  | .local _ .vmem, ⟨8, _⟩ => ⟨S6000x1, .f32⟩
  | .local _ .vmem, ⟨9, _⟩ => ⟨S6000x64, .f32⟩
  | .local _ .vmem, ⟨10, _⟩ => ⟨S6000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S10000x64, .f32⟩
  | .local _ .vmem, ⟨20, _⟩ => ⟨S10000x64, .f32⟩
  | .local _ .vmem, ⟨21, _⟩ => ⟨S6000x64, .f32⟩
  | .local _ .vmem, ⟨22, _⟩ => ⟨S6000x64, .f32⟩
  | .local _ .vmem, ⟨23, _⟩ => ⟨S6000x1, .f32⟩
  | .local _ .vmem, ⟨24, _⟩ => ⟨S6000x1, .f32⟩
  | .local _ .vmem, ⟨25, _⟩ => ⟨S6000x64, .f32⟩
  | .local _ .vmem, ⟨26, _⟩ => ⟨S6000x64, .f32⟩
  | .local _ .vmem, ⟨27, _⟩ => ⟨S5000x64, .f32⟩
  | .local _ .vmem, ⟨28, _⟩ => ⟨S5000x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S1x64, .f32⟩
  | .local _ .vmem, ⟨37, _⟩ => ⟨S1x1, .f32⟩
  | .local _ .vmem, ⟨38, _⟩ => ⟨S5000x1, .f32⟩
  | .local _ .vmem, ⟨39, _⟩ => ⟨S5000x1, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S1x64, .f32⟩
  | .local _ .vmem, ⟨45, _⟩ => ⟨S1x1, .f32⟩
  | .local _ .vmem, ⟨46, _⟩ => ⟨S5000x1, .f32⟩
  | .local _ .vmem, ⟨47, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_12 : Ref sig .tc := ⟨.hbm, 94, rfl⟩
abbrev main_v68 : Ref sig .tc := ⟨.hbm, 95, rfl⟩
abbrev main_v69 : Ref sig .tc := ⟨.hbm, 96, rfl⟩
abbrev main_c_13 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_14 : Ref sig .tc := ⟨.hbm, 103, rfl⟩
abbrev main_v75 : Ref sig .tc := ⟨.hbm, 104, rfl⟩
abbrev main_v76 : Ref sig .tc := ⟨.hbm, 105, rfl⟩
abbrev main_c_15 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_c_16 : Ref sig .tc := ⟨.hbm, 116, rfl⟩
abbrev main_v86 : Ref sig .tc := ⟨.hbm, 117, rfl⟩
abbrev main_v87 : Ref sig .tc := ⟨.hbm, 118, rfl⟩
abbrev main_c_17 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_c_18 : Ref sig .tc := ⟨.hbm, 125, rfl⟩
abbrev main_v93 : Ref sig .tc := ⟨.hbm, 126, rfl⟩
abbrev main_v94 : Ref sig .tc := ⟨.hbm, 127, rfl⟩
abbrev main_c_19 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg1_1 : Ref sig .tc := ⟨.vmem, 35, rfl⟩
abbrev cc6_stg2_0 : Ref sig .tc := ⟨.vmem, 36, rfl⟩
abbrev cc6_stg3_0 : Ref sig .tc := ⟨.vmem, 37, rfl⟩
abbrev cc6_stg4_0 : Ref sig .tc := ⟨.vmem, 38, rfl⟩
abbrev cc6_stg4_1 : Ref sig .tc := ⟨.vmem, 39, rfl⟩
abbrev cc7_stg0_0 : Ref sig .tc := ⟨.vmem, 40, rfl⟩
abbrev cc7_stg0_1 : Ref sig .tc := ⟨.vmem, 41, rfl⟩
abbrev cc7_stg1_0 : Ref sig .tc := ⟨.vmem, 42, rfl⟩
abbrev cc7_stg1_1 : Ref sig .tc := ⟨.vmem, 43, rfl⟩
abbrev cc7_stg2_0 : Ref sig .tc := ⟨.vmem, 44, rfl⟩
abbrev cc7_stg3_0 : Ref sig .tc := ⟨.vmem, 45, rfl⟩
abbrev cc7_stg4_0 : Ref sig .tc := ⟨.vmem, 46, rfl⟩
abbrev cc7_stg4_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem1_1 : DmaSem sig := 35
abbrev cc6_sem2_0 : DmaSem sig := 36
abbrev cc6_sem3_0 : DmaSem sig := 37
abbrev cc6_sem4_0 : DmaSem sig := 38
abbrev cc6_sem4_1 : DmaSem sig := 39
abbrev cc7_sem0_0 : DmaSem sig := 40
abbrev cc7_sem0_1 : DmaSem sig := 41
abbrev cc7_sem1_0 : DmaSem sig := 42
abbrev cc7_sem1_1 : DmaSem sig := 43
abbrev cc7_sem2_0 : DmaSem sig := 44
abbrev cc7_sem3_0 : DmaSem sig := 45
abbrev cc7_sem4_0 : DmaSem sig := 46
abbrev cc7_sem4_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![550], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![550], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S6000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x1 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x1 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S3300000_S3300000x1 : S3300000.ShapeCasts S3300000x1
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  inb_S6000x1_S6000x1_0_0 : ∀ a, (![0, 0] : Fin 2 → Nat) a + S6000x1.size a ≤ S6000x1.size a
  h_S6000x1 : 0 < S6000x1.numel
  shapeCasts_S6000x1_S6000x1 : S6000x1.ShapeCasts S6000x1
  broadcasts_S6000x1_S6000x64 : S6000x1.Broadcasts S6000x64
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  shapeCasts_S64x1_S1x64 : S64x1.ShapeCasts S1x64
  shapeCasts_S1_S1x1 : S1.ShapeCasts S1x1
  reduces_S5000x64_S5000 : S5000x64.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S500000x1_S500000 : S500000x1.ShapeCasts S500000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  gather_S100000x64_S500000x1_S500000x64_1_0_n_n_0_1_164_wf : GatherDims.WF S100000x64 S500000x1 S500000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x64.size a ≤ S3300000x64.size a
  hwx1_0 : ∀ i : grid1.Coords, EltTy.bits .f32 = 32 ∨ (Rect.block (s := S3300000x64) S6000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x1.size a ≤ S3300000x1.size a
  hwx1_1 : ∀ i : grid1.Coords, EltTy.bits .f32 = 32 ∨ (Rect.block (s := S3300000x1) S6000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x64.size a ≤ S3300000x64.size a
  hwx1_2 : ∀ i : grid1.Coords, EltTy.bits .f32 = 32 ∨ (Rect.block (s := S3300000x64) S6000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6000x64.size a ≤ S3300000x64.size a
  hwx4_0 : ∀ i : grid4.Coords, EltTy.bits .f32 = 32 ∨ (Rect.block (s := S3300000x64) S6000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6000x1.size a ≤ S3300000x1.size a
  hwx4_1 : ∀ i : grid4.Coords, EltTy.bits .f32 = 32 ∨ (Rect.block (s := S3300000x1) S6000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6000x64.size a ≤ S3300000x64.size a
  hwx4_2 : ∀ i : grid4.Coords, EltTy.bits .f32 = 32 ∨ (Rect.block (s := S3300000x64) S6000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S500000x64.size a
  hwx6_0 : ∀ i : grid6.Coords, EltTy.bits .f32 = 32 ∨ (Rect.block (s := S500000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S500000x64.size a
  hwx6_1 : ∀ i : grid6.Coords, EltTy.bits .f32 = 32 ∨ (Rect.block (s := S500000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x1.size a ≤ S1x1.size a
  hwx6_3 : ∀ i : grid6.Coords, EltTy.bits .f32 = 32 ∨ (Rect.block (s := S1x1) S1x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x1.size a ≤ S500000x1.size a
  hwx6_4 : ∀ i : grid6.Coords, EltTy.bits .f32 = 32 ∨ (Rect.block (s := S500000x1) S5000x1.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S500000x64.size a
  hwx7_0 : ∀ i : grid7.Coords, EltTy.bits .f32 = 32 ∨ (Rect.block (s := S500000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S500000x64.size a
  hwx7_1 : ∀ i : grid7.Coords, EltTy.bits .f32 = 32 ∨ (Rect.block (s := S500000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x1.size a ≤ S1x1.size a
  hwx7_3 : ∀ i : grid7.Coords, EltTy.bits .f32 = 32 ∨ (Rect.block (s := S1x1) S1x1.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x1.size a ≤ S500000x1.size a
  hwx7_4 : ∀ i : grid7.Coords, EltTy.bits .f32 = 32 ∨ (Rect.block (s := S500000x1) S5000x1.size (cc7_transform_4 i) (hinb7_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S6000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S6000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S6000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S6000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S6000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v54) S6000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v59) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v74) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v81) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v82) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v83) S1x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v84) S5000x1.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v92) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v99) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v100) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v101) S1x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v102) S5000x1.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S2x500000 : Shape := ⟨2, ![2, 500000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S1x1 : Shape := ⟨2, ![1, 1]⟩

abbrev nBuf : Space → Nat
  | .hbm => 192
  | .vmem => 0
  | .smem => 0
  | _ => 0

abbrev hbmTy0_0 (i : Nat) : BufTy := match i % 128 with
  | 0 => ⟨S100000x128, .f32⟩
  | 1 => ⟨S2x3200000, .i32⟩
  | 2 => ⟨S2x500000, .i32⟩
  | 3 => ⟨S2x500000, .i32⟩
  | 4 => ⟨S128x64, .f32⟩
  | 5 => ⟨S64, .f32⟩
  | 6 => ⟨S64x64, .f32⟩
  | 7 => ⟨S64, .f32⟩
  | 8 => ⟨S64x1, .f32⟩
  | 9 => ⟨S1, .f32⟩
  | 10 => ⟨S100000, .i32⟩
  | 11 => ⟨S1x3200000, .i32⟩
  | 12 => ⟨S3200000, .i32⟩
  | 13 => ⟨S3300000, .i32⟩
  | 14 => ⟨S1x3200000, .i32⟩
  | 15 => ⟨S3200000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S100000x64, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000x64, .f32⟩
  | 60 => ⟨S3300000x1, .f32⟩
  | 61 => ⟨S3300000x64, .f32⟩
  | 62 => ⟨S3300000x64, .f32⟩
  | 63 => ⟨S_, .f32⟩
  | 64 => ⟨S100000x64, .f32⟩
  | 65 => ⟨S3300000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000, .i32⟩
  | 74 => ⟨S1x3200000, .i32⟩
  | 75 => ⟨S3200000, .i32⟩
  | 76 => ⟨S3300000, .i32⟩
  | 77 => ⟨S1x3200000, .i32⟩
  | 78 => ⟨S3200000, .i32⟩
  | 79 => ⟨S3300000, .i32⟩
  | 80 => ⟨S_, .f32⟩
  | 81 => ⟨S3300000, .f32⟩
  | 82 => ⟨S_, .f32⟩
  | 83 => ⟨S100000, .f32⟩
  | 84 => ⟨S3300000x1, .i32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S3300000, .i32⟩
  | 96 => ⟨S3300000, .i1⟩
  | 97 => ⟨S_, .i32⟩
  | 98 => ⟨S3300000, .i32⟩
  | 99 => ⟨S3300000, .i32⟩
  | 100 => ⟨S3300000, .i32⟩
  | 101 => ⟨S3300000x1, .i32⟩
  | 102 => ⟨S3300000, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000, .f32⟩
  | 112 => ⟨S3300000, .f32⟩
  | 113 => ⟨S100000x64, .f32⟩
  | 114 => ⟨S_, .i32⟩
  | 115 => ⟨S3300000, .i32⟩
  | 116 => ⟨S3300000, .i1⟩
  | 117 => ⟨S_, .i32⟩
  | 118 => ⟨S3300000, .i32⟩
  | 119 => ⟨S3300000, .i32⟩
  | 120 => ⟨S3300000, .i32⟩
  | 121 => ⟨S3300000x1, .i32⟩
  | 122 => ⟨S3300000x64, .f32⟩
  | 123 => ⟨S3300000x1, .f32⟩
  | 124 => ⟨S3300000x64, .f32⟩
  | 125 => ⟨S3300000x64, .f32⟩
  | 126 => ⟨S_, .f32⟩
  | 127 => ⟨S100000x64, .f32⟩
  | _ => ⟨S100000x128, .f32⟩

abbrev hbmTy0_1 (i : Nat) : BufTy := match i % 128 with
  | 0 => ⟨S3300000x1, .i32⟩
  | 1 => ⟨S100000x64, .f32⟩
  | 2 => ⟨S1x64, .f32⟩
  | 3 => ⟨S100000x64, .f32⟩
  | 4 => ⟨S100000x64, .f32⟩
  | 5 => ⟨S_, .f32⟩
  | 6 => ⟨S100000x64, .f32⟩
  | 7 => ⟨S100000x64, .f32⟩
  | 8 => ⟨S1x500000, .i32⟩
  | 9 => ⟨S500000, .i32⟩
  | 10 => ⟨S1x500000, .i32⟩
  | 11 => ⟨S500000, .i32⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S500000x1, .i32⟩
  | 20 => ⟨S500000x64, .f32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S500000x64, .f32⟩
  | 30 => ⟨S500000x64, .f32⟩
  | 31 => ⟨S500000x1, .f32⟩
  | 32 => ⟨S1x1, .f32⟩
  | 33 => ⟨S500000x1, .f32⟩
  | 34 => ⟨S500000x1, .f32⟩
  | 35 => ⟨S500000, .f32⟩
  | 36 => ⟨S1x500000, .i32⟩
  | 37 => ⟨S500000, .i32⟩
  | 38 => ⟨S1x500000, .i32⟩
  | 39 => ⟨S500000, .i32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S500000x1, .i32⟩
  | 48 => ⟨S500000x64, .f32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S500000x64, .f32⟩
  | 58 => ⟨S500000x64, .f32⟩
  | 59 => ⟨S500000x1, .f32⟩
  | 60 => ⟨S1x1, .f32⟩
  | 61 => ⟨S500000x1, .f32⟩
  | 62 => ⟨S500000x1, .f32⟩
  | 63 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v62 : Ref sig .tc := ⟨.hbm, 93, rfl⟩
abbrev main_c_13 : Ref sig .tc := ⟨.hbm, 94, rfl⟩
abbrev main_v63 : Ref sig .tc := ⟨.hbm, 95, rfl⟩
abbrev main_v64 : Ref sig .tc := ⟨.hbm, 96, rfl⟩
abbrev main_c_14 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_15 : Ref sig .tc := ⟨.hbm, 103, rfl⟩
abbrev main_v70 : Ref sig .tc := ⟨.hbm, 104, rfl⟩
abbrev main_v71 : Ref sig .tc := ⟨.hbm, 105, rfl⟩
abbrev main_c_16 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_17 : Ref sig .tc := ⟨.hbm, 114, rfl⟩
abbrev main_v79 : Ref sig .tc := ⟨.hbm, 115, rfl⟩
abbrev main_v80 : Ref sig .tc := ⟨.hbm, 116, rfl⟩
abbrev main_c_18 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_19 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_call3_cst : Ref sig .tc := ⟨.hbm, 133, rfl⟩
abbrev main_call3_v0 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_c_20 : Ref sig .tc := ⟨.hbm, 140, rfl⟩
abbrev main_v100 : Ref sig .tc := ⟨.hbm, 141, rfl⟩
abbrev main_v101 : Ref sig .tc := ⟨.hbm, 142, rfl⟩
abbrev main_c_21 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_c_22 : Ref sig .tc := ⟨.hbm, 149, rfl⟩
abbrev main_v107 : Ref sig .tc := ⟨.hbm, 150, rfl⟩
abbrev main_v108 : Ref sig .tc := ⟨.hbm, 151, rfl⟩
abbrev main_c_23 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_c_24 : Ref sig .tc := ⟨.hbm, 168, rfl⟩
abbrev main_v124 : Ref sig .tc := ⟨.hbm, 169, rfl⟩
abbrev main_v125 : Ref sig .tc := ⟨.hbm, 170, rfl⟩
abbrev main_c_25 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_c_26 : Ref sig .tc := ⟨.hbm, 177, rfl⟩
abbrev main_v131 : Ref sig .tc := ⟨.hbm, 178, rfl⟩
abbrev main_v132 : Ref sig .tc := ⟨.hbm, 179, rfl⟩
abbrev main_c_27 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  gather_S100000x64_S500000x1_S500000x64_1_0_n_n_0_1_164_wf : GatherDims.WF S100000x64 S500000x1 S500000x64 [1] [0] [] [0] [] 1 ![1, 64]
  dot_S500000x64_S64x1_S500000x1_1_0_0_1_n_n_wf : DotDims.WF S500000x64 S64x1 S500000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf

class Facts : Prop extends Facts₀ where

variable [Facts]
-- ==== Proof.KRun.lean ====
/-
  The idealized kernel program's run with its two results named: every weakly fair execution of @main terminates
  without a fault, and in the final memory the two result buffers hold what the last segment boundary's contents
  hold there (the fold of the host stretches and of the eight regions' write-backs from the launch memory), the
  arguments unchanged.
-/
import proofs.«174922_j2516850835926_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the results read at the last boundary's contents. -/
theorem run_boundary : θ_run defs (onTc (τ := τ) (main (F := F))) ⟨m, fun _ => 0, ρ⟩ (fun r => ∀ c : Dev nD,
      r.2.mem ((c.tc : Thread nD τ).loc main_v85) = W18 m ρ c (Proc.devRef .tc main_v85)
      ∧ r.2.mem ((c.tc : Thread nD τ).loc main_v103) = W18 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v85 (by decide)),
       h c _ (mem_uc main_v103 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c)⟩)

end Cert.KernelIdeal.Hand

end
-- ==== Proof.RefSpec.lean ====
/-
  The reference program's two results as a composition of a few named steps of the arguments, at any float
  instance: the edge list's two rows with the self-loops appended, positions normalised (a negative position has the
  node count added), the node degrees as a scatter-sum of ones, their inverse square roots where positive and zero
  elsewhere, the per-edge factor as the product of the two gathered inverse roots, one graph-convolution layer
  (gather the projected rows at the sources, scale by the factor, scatter-sum into the targets, add the bias,
  clamp at zero) and the link score (gather both ends' rows, multiply them, project on the weight column, add the
  bias, flatten).
-/
import proofs.«174922_j2516850835926_2_alg».proof.Proof.Gen.ReferenceIdeal

noncomputable section

namespace Cert.ReferenceIdeal.Hand

open Cert.ReferenceIdeal Cert.ReferenceIdeal.Gen Idealize.ShloMosaic

variable {F : FTy → Type} [FloatOps F]

/-- Row 0 of the edge list (the sources) followed by the self-loops 0, 1, …, 99999. -/
def ends0 (x1 : (⟨S2x3200000, .i32⟩ : BufTy).Contents (Elt F)) : (⟨S3300000, .i32⟩ : BufTy).Contents (Elt F) :=
  concatenate S3300000 0 [⟨S3200000, (shapeCast S3200000 (extractStridedSlice S1x3200000 ![0, 0] x1 slices_S2x3200000_S1x3200000_0_0) shapeCasts_S1x3200000_S3200000)⟩, ⟨S100000, (iotaInDim S100000 32 0)⟩] concatenates_S3200000_S100000_S3300000_d0

/-- Row 1 of the edge list (the targets) followed by the self-loops. -/
def ends1 (x1 : (⟨S2x3200000, .i32⟩ : BufTy).Contents (Elt F)) : (⟨S3300000, .i32⟩ : BufTy).Contents (Elt F) :=
  concatenate S3300000 0 [⟨S3200000, (shapeCast S3200000 (extractStridedSlice S1x3200000 ![1, 0] x1 slices_S2x3200000_S1x3200000_1_0) shapeCasts_S1x3200000_S3200000)⟩, ⟨S100000, (iotaInDim S100000 32 0)⟩] concatenates_S3200000_S100000_S3300000_d0

/-- Positions normalised for a gather (a negative position has 100000 added), laid out as a column. -/
def wrapCol (v : (⟨S3300000, .i32⟩ : BufTy).Contents (Elt F)) : (⟨S3300000x1, .i32⟩ : BufTy).Contents (Elt F) :=
  broadcastInDim S3300000x1 ![0] bcast_S3300000_S3300000x1_0 (select (cmpi .slt v (broadcastInDim S3300000 ![] bcast_S_S3300000 (constantI S_ 32 0#32))) (addi v (broadcastInDim S3300000 ![] bcast_S_S3300000 (constantI S_ 32 100000#32))) v)

/-- The same for the 500000 positions of a row of a link list. -/
def wrapCol5 (v : (⟨S500000, .i32⟩ : BufTy).Contents (Elt F)) : (⟨S500000x1, .i32⟩ : BufTy).Contents (Elt F) :=
  broadcastInDim S500000x1 ![0] bcast_S500000_S500000x1_0 (select (cmpi .slt v (broadcastInDim S500000 ![] bcast_S_S500000 (constantI S_ 32 0#32))) (addi v (broadcastInDim S500000 ![] bcast_S_S500000 (constantI S_ 32 100000#32))) v)

/-- The node degrees: ones scatter-summed at the targets. -/
def deg (x1 : (⟨S2x3200000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 (ends1 (F := F) x1)) (broadcastInDim S3300000 ![] bcast_S_S3300000 (constant S_ .f32 0x3F800000#32))

/-- The inverse square root of the degree where it is positive, zero elsewhere. -/
def dinv (x1 : (⟨S2x3200000, .i32⟩ : BufTy).Contents (Elt F)) : (⟨S100000, .f32⟩ : BufTy).Contents (Elt F) :=
  select (cmpf .ogt (deg (F := F) x1) (broadcastInDim S100000 ![] bcast_S_S100000 (constant S_ .f32 0x00000000#32))) (Host.rsqrt (deg (F := F) x1)) (broadcastInDim S100000 ![] bcast_S_S100000 (id (constant (F := F) S_ .f32 0x00000000#32)))

/-- The per-edge factor: the source's inverse root times the target's. -/
def norm (x1 : (⟨S2x3200000, .i32⟩ : BufTy).Contents (Elt F)) : (⟨S3300000, .f32⟩ : BufTy).Contents (Elt F) :=
  mulf (Host.gather gather_S100000_S3300000x1_S3300000_n_0_n_n_0_1_1 (dinv (F := F) x1) (wrapCol (F := F) (ends0 (F := F) x1))) (Host.gather gather_S100000_S3300000x1_S3300000_n_0_n_n_0_1_1 (dinv (F := F) x1) (wrapCol (F := F) (ends1 (F := F) x1)))

/-- The per-edge messages of a layer: the projected rows gathered at the sources, each scaled by its edge's factor. -/
def messages (xw : (⟨S100000x64, .f32⟩ : BufTy).Contents (Elt F)) (x1 : (⟨S2x3200000, .i32⟩ : BufTy).Contents (Elt F)) :
    (⟨S3300000x64, .f32⟩ : BufTy).Contents (Elt F) :=
  mulf (Host.gather gather_S100000x64_S3300000x1_S3300000x64_1_0_n_n_0_1_164 xw (wrapCol (F := F) (ends0 (F := F) x1))) (broadcastInDim S3300000x64 ![0, 1] bcast_S3300000x1_S3300000x64_0_1 (broadcastInDim S3300000x1 ![0] bcast_S3300000_S3300000x1_0 (norm (F := F) x1)))

/-- The messages scatter-summed at the targets. -/
def aggregate (msg : (⟨S3300000x64, .f32⟩ : BufTy).Contents (Elt F)) (x1 : (⟨S2x3200000, .i32⟩ : BufTy).Contents (Elt F)) :
    (⟨S100000x64, .f32⟩ : BufTy).Contents (Elt F) :=
  Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 (ends1 (F := F) x1)) msg

/-- The bias added to every row, clamped below at zero. -/
def biasRelu (agg : (⟨S100000x64, .f32⟩ : BufTy).Contents (Elt F)) (bvec : (⟨S64, .f32⟩ : BufTy).Contents (Elt F)) :
    (⟨S100000x64, .f32⟩ : BufTy).Contents (Elt F) :=
  maximumf (addf agg (broadcastInDim S100000x64 ![0, 1] bcast_S1x64_S100000x64_0_1 (broadcastInDim S1x64 ![1] bcast_S64_S1x64_1 bvec))) (broadcastInDim S100000x64 ![] bcast_S_S100000x64 (constant S_ .f32 0x00000000#32))

/-- One layer from the projected rows. -/
def layer (xw : (⟨S100000x64, .f32⟩ : BufTy).Contents (Elt F)) (bvec : (⟨S64, .f32⟩ : BufTy).Contents (Elt F))
    (x1 : (⟨S2x3200000, .i32⟩ : BufTy).Contents (Elt F)) : (⟨S100000x64, .f32⟩ : BufTy).Contents (Elt F) :=
  biasRelu (F := F) (aggregate (F := F) (messages (F := F) xw x1) x1) bvec

/-- The first layer's projection. -/
def proj1 (x0 : (⟨S100000x128, .f32⟩ : BufTy).Contents (Elt F)) (x4 : (⟨S128x64, .f32⟩ : BufTy).Contents (Elt F)) :
    (⟨S100000x64, .f32⟩ : BufTy).Contents (Elt F) :=
  Host.dotGeneral dot_S100000x128_S128x64_S100000x64_1_0_0_1_n_n none x0 x4

/-- The second layer's projection. -/
def proj2 (z : (⟨S100000x64, .f32⟩ : BufTy).Contents (Elt F)) (x6 : (⟨S64x64, .f32⟩ : BufTy).Contents (Elt F)) :
    (⟨S100000x64, .f32⟩ : BufTy).Contents (Elt F) :=
  Host.dotGeneral dot_S100000x64_S64x64_S100000x64_1_0_0_1_n_n none z x6

/-- The node embeddings after both layers. -/
def embed (x0 : (⟨S100000x128, .f32⟩ : BufTy).Contents (Elt F)) (x1 : (⟨S2x3200000, .i32⟩ : BufTy).Contents (Elt F))
    (x4 : (⟨S128x64, .f32⟩ : BufTy).Contents (Elt F)) (x5 : (⟨S64, .f32⟩ : BufTy).Contents (Elt F))
    (x6 : (⟨S64x64, .f32⟩ : BufTy).Contents (Elt F)) (x7 : (⟨S64, .f32⟩ : BufTy).Contents (Elt F)) :
    (⟨S100000x64, .f32⟩ : BufTy).Contents (Elt F) :=
  layer (F := F) (proj2 (F := F) (layer (F := F) (proj1 (F := F) x0 x4) x5 x1) x6) x7 x1

/-- Row r of a link list. -/
def linkRow0 (e : (⟨S2x500000, .i32⟩ : BufTy).Contents (Elt F)) : (⟨S500000, .i32⟩ : BufTy).Contents (Elt F) :=
  shapeCast S500000 (extractStridedSlice S1x500000 ![0, 0] e slices_S2x500000_S1x500000_0_0) shapeCasts_S1x500000_S500000
def linkRow1 (e : (⟨S2x500000, .i32⟩ : BufTy).Contents (Elt F)) : (⟨S500000, .i32⟩ : BufTy).Contents (Elt F) :=
  shapeCast S500000 (extractStridedSlice S1x500000 ![1, 0] e slices_S2x500000_S1x500000_1_0) shapeCasts_S1x500000_S500000

/-- The two ends' embeddings of every link. -/
def endRows0 (z : (⟨S100000x64, .f32⟩ : BufTy).Contents (Elt F)) (e : (⟨S2x500000, .i32⟩ : BufTy).Contents (Elt F)) :
    (⟨S500000x64, .f32⟩ : BufTy).Contents (Elt F) :=
  Host.gather gather_S100000x64_S500000x1_S500000x64_1_0_n_n_0_1_164 z (wrapCol5 (F := F) (linkRow0 (F := F) e))
def endRows1 (z : (⟨S100000x64, .f32⟩ : BufTy).Contents (Elt F)) (e : (⟨S2x500000, .i32⟩ : BufTy).Contents (Elt F)) :
    (⟨S500000x64, .f32⟩ : BufTy).Contents (Elt F) :=
  Host.gather gather_S100000x64_S500000x1_S500000x64_1_0_n_n_0_1_164 z (wrapCol5 (F := F) (linkRow1 (F := F) e))

/-- The link scores as a column: the product of the two ends' rows projected on the weight column, plus the bias. -/
def scoreCol (zs zd : (⟨S500000x64, .f32⟩ : BufTy).Contents (Elt F)) (x8 : (⟨S64x1, .f32⟩ : BufTy).Contents (Elt F))
    (x9 : (⟨S1, .f32⟩ : BufTy).Contents (Elt F)) : (⟨S500000x1, .f32⟩ : BufTy).Contents (Elt F) :=
  addf (Host.dotGeneral dot_S500000x64_S64x1_S500000x1_1_0_0_1_n_n none (mulf zs zd) x8) (broadcastInDim S500000x1 ![0, 1] bcast_S1x1_S500000x1_0_1 (broadcastInDim S1x1 ![1] bcast_S1_S1x1_1 x9))

/-- The link scores of a link list, flattened. -/
def scores (z : (⟨S100000x64, .f32⟩ : BufTy).Contents (Elt F)) (e : (⟨S2x500000, .i32⟩ : BufTy).Contents (Elt F))
    (x8 : (⟨S64x1, .f32⟩ : BufTy).Contents (Elt F)) (x9 : (⟨S1, .f32⟩ : BufTy).Contents (Elt F)) :
    (⟨S500000, .f32⟩ : BufTy).Contents (Elt F) :=
  shapeCast S500000 (scoreCol (F := F) (endRows0 (F := F) z e) (endRows1 (F := F) z e) x8 x9) shapeCasts_S500000x1_S500000

end Cert.ReferenceIdeal.Hand

end
-- ==== Proof.LibTRef.lean ====
/-
  A typed reference carries a buffer together with the equation between the buffer's type and the value's type;
  contents are moved to the buffer's type and back along that equation. Moving there and back changes nothing.
-/
import Idealize.ShloMosaic.Lib.StableHlo

namespace Cert.LibTRef

open Idealize.ShloMosaic

/-- Contents carried to a typed reference's buffer and back are the contents. -/
theorem ofBuf_toBuf {sg : RefSig} {Vl : EltTy → Type} {T : BufTy} (x : StableHlo.TRef sg T) (v : T.Contents Vl) :
    x.ofBuf (x.toBuf v) = v := by
  obtain ⟨r, rfl, h1, h2⟩ := x
  rfl

end Cert.LibTRef
-- ==== Proof.KCast.lean ====
/-
  Two small facts about the first host stretch of the idealized kernel program. Joining the edge list's row with the
  self-loops is one function of the two vectors; and a value carried into, or read back from, the buffer of an outlined
  function's operand is the value, since the buffer's type is literally the value's type.
-/
import proofs.«174922_j2516850835926_2_alg».proof.Proof.Gen.KernelIdeal.Launch
import proofs.«174922_j2516850835926_2_alg».proof.Proof.LibTRef
import Idealize.ShloMosaic.Lib.StableHlo.Run
import Idealize.ShloMosaic.PureOps.Ideal

noncomputable section

namespace Cert.KernelIdeal.Hand

open Cert.KernelIdeal Cert.KernelIdeal.Gen Idealize.ShloMosaic Idealize.SL.Sem

/-- Two index vectors joined end to end. -/
def cat2 (a : (⟨S3200000, .i32⟩ : BufTy).Contents (Elt Ideal)) (b : (⟨S100000, .i32⟩ : BufTy).Contents (Elt Ideal)) :
    (⟨S3300000, .i32⟩ : BufTy).Contents (Elt Ideal) :=
  concatenate S3300000 0 [⟨S3200000, a⟩, ⟨S100000, b⟩] concatenates_S3200000_S100000_S3300000_d0

theorem cat2_fun : ((fun a b => concatenate S3300000 0 [⟨S3200000, a⟩, ⟨S100000, b⟩] concatenates_S3200000_S100000_S3300000_d0) :
    (⟨S3200000, .i32⟩ : BufTy).Contents (Elt Ideal) → (⟨S100000, .i32⟩ : BufTy).Contents (Elt Ideal) → (⟨S3300000, .i32⟩ : BufTy).Contents (Elt Ideal)) = cat2 := rfl

/-- Contents read from, or carried to, a buffer whose type is literally the value's type are the contents. -/
theorem ofBuf_v12 (w : (⟨S100000, .i1⟩ : BufTy).Contents (Elt Ideal)) : (StableHlo.TRef.of (T := ⟨S100000, .i1⟩) (sig := sig) main_v12).ofBuf w = w := rfl
theorem ofBuf_v13 (w : (⟨S100000, .f32⟩ : BufTy).Contents (Elt Ideal)) : (StableHlo.TRef.of (T := ⟨S100000, .f32⟩) (sig := sig) main_v13).ofBuf w = w := rfl
theorem ofBuf_cst2 (w : (⟨S_, .f32⟩ : BufTy).Contents (Elt Ideal)) : (StableHlo.TRef.of (T := ⟨S_, .f32⟩) (sig := sig) main_cst_2).ofBuf w = w := rfl
theorem toBuf_v14 (w : (⟨S100000, .f32⟩ : BufTy).Contents (Elt Ideal)) : (StableHlo.TRef.of (T := ⟨S100000, .f32⟩) (sig := sig) main_v14).toBuf w = w := rfl

end Cert.KernelIdeal.Hand

end
-- ==== Proof.KKeep.lean ====
/-
  What the idealized kernel program's buffers hold at the boundaries between its host stretches and its eight
  regions, for the buffers that later stretches read again: the edge list's two rows with the self-loops appended,
  the per-edge factor, and the arguments. Each is computed once by the first host stretches and written by nothing
  afterwards: a host operation writes only its own result buffer, and a region writes only its own output array.
-/
import proofs.«174922_j2516850835926_2_alg».proof.Proof.Gen.KernelIdeal.Frame
import proofs.«174922_j2516850835926_2_alg».proof.Proof.RefSpec
import proofs.«174922_j2516850835926_2_alg».proof.Proof.KCast
import Idealize.ShloMosaic.Lib.StableHlo.Run
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.StableHlo
open Cert.ReferenceIdeal.Hand renaming ends0 → rEnds0, ends1 → rEnds1, wrapCol → rWrap, wrapCol5 → rWrap5, norm → rNorm, messages → rMsg,
  aggregate → rAgg, biasRelu → rBiasRelu, layer → rLayer, proj1 → rProj1, proj2 → rProj2, embed → rEmbed, endRows0 → rEnd0, endRows1 → rEnd1,
  scoreCol → rScoreCol, scores → rScores

variable (m : (ℓ : Loc nD τ sig) → Buf (Elt Ideal) ℓ) (ρ : Dev nD → PrngReg)

theorem at3_main_v3 (c : Dev nD) : W3 m ρ c (Proc.devRef .tc main_v3) = rEnds0 (F := Ideal) (m ((c : Thread nD τ).loc main_arg1)) := by
  show StableHlo.after hostOps0_2 (StableHlo.after hostOps0_1 (StableHlo.after hostOps0 (W0 m ρ c))) (Proc.devRef .tc main_v3) = _
  after_results_simp
  rfl
theorem at3_main_v6 (c : Dev nD) : W3 m ρ c (Proc.devRef .tc main_v6) = rEnds1 (F := Ideal) (m ((c : Thread nD τ).loc main_arg1)) := by
  show StableHlo.after hostOps0_2 (StableHlo.after hostOps0_1 (StableHlo.after hostOps0 (W0 m ρ c))) (Proc.devRef .tc main_v6) = _
  after_results_simp
  rfl
theorem at3_main_v29 (c : Dev nD) : W3 m ρ c (Proc.devRef .tc main_v29) = rNorm (F := Ideal) (m ((c : Thread nD τ).loc main_arg1)) := by
  show StableHlo.after hostOps0_2 (StableHlo.after hostOps0_1 (StableHlo.after hostOps0 (W0 m ρ c))) (Proc.devRef .tc main_v29) = _
  simp only [hostOps0, cat2_fun]
  after_results_simp
  simp only [Cert.LibTRef.ofBuf_toBuf, ofBuf_v12, ofBuf_v13, ofBuf_cst2, toBuf_v14]
  rfl
theorem at3_main_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
theorem at3_main_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
theorem at3_main_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl
theorem at3_main_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl
theorem at3_main_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl
theorem at3_main_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl
theorem at3_main_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
theorem at3_main_arg8 (c : Dev nD) : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results_simp <;> rfl
theorem at3_main_arg9 (c : Dev nD) : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  after_results_simp <;> rfl
theorem at4_main_v3 (c : Dev nD) : W4 m ρ c (Proc.devRef .tc main_v3) = rEnds0 (F := Ideal) (m ((c : Thread nD τ).loc main_arg1)) :=
  (W4_of_ne m ρ c main_v3 (by decide)).trans (at3_main_v3 m ρ c)
theorem at4_main_v29 (c : Dev nD) : W4 m ρ c (Proc.devRef .tc main_v29) = rNorm (F := Ideal) (m ((c : Thread nD τ).loc main_arg1)) :=
  (W4_of_ne m ρ c main_v29 (by decide)).trans (at3_main_v29 m ρ c)
theorem at4_main_v6 (c : Dev nD) : W4 m ρ c (Proc.devRef .tc main_v6) = rEnds1 (F := Ideal) (m ((c : Thread nD τ).loc main_arg1)) :=
  (W4_of_ne m ρ c main_v6 (by decide)).trans (at3_main_v6 m ρ c)
theorem at4_main_arg5 (c : Dev nD) : W4 m ρ c (Proc.devRef .tc main_arg5) = m ((c : Thread nD τ).loc main_arg5) :=
  (W4_of_ne m ρ c main_arg5 (by decide)).trans (at3_main_arg5 m ρ c)
theorem at4_main_arg6 (c : Dev nD) : W4 m ρ c (Proc.devRef .tc main_arg6) = m ((c : Thread nD τ).loc main_arg6) :=
  (W4_of_ne m ρ c main_arg6 (by decide)).trans (at3_main_arg6 m ρ c)
theorem at4_main_arg7 (c : Dev nD) : W4 m ρ c (Proc.devRef .tc main_arg7) = m ((c : Thread nD τ).loc main_arg7) :=
  (W4_of_ne m ρ c main_arg7 (by decide)).trans (at3_main_arg7 m ρ c)
theorem at4_main_arg2 (c : Dev nD) : W4 m ρ c (Proc.devRef .tc main_arg2) = m ((c : Thread nD τ).loc main_arg2) :=
  (W4_of_ne m ρ c main_arg2 (by decide)).trans (at3_main_arg2 m ρ c)
theorem at4_main_arg3 (c : Dev nD) : W4 m ρ c (Proc.devRef .tc main_arg3) = m ((c : Thread nD τ).loc main_arg3) :=
  (W4_of_ne m ρ c main_arg3 (by decide)).trans (at3_main_arg3 m ρ c)
theorem at4_main_arg8 (c : Dev nD) : W4 m ρ c (Proc.devRef .tc main_arg8) = m ((c : Thread nD τ).loc main_arg8) :=
  (W4_of_ne m ρ c main_arg8 (by decide)).trans (at3_main_arg8 m ρ c)
theorem at4_main_arg9 (c : Dev nD) : W4 m ρ c (Proc.devRef .tc main_arg9) = m ((c : Thread nD τ).loc main_arg9) :=
  (W4_of_ne m ρ c main_arg9 (by decide)).trans (at3_main_arg9 m ρ c)
theorem at6_main_v6 (c : Dev nD) : W6 m ρ c (Proc.devRef .tc main_v6) = rEnds1 (F := Ideal) (m ((c : Thread nD τ).loc main_arg1)) :=
  ((W6_of_ne m ρ c main_v6 (by decide)).trans (by
    show StableHlo.after hostOps1 (W4 m ρ c) (Proc.devRef .tc main_v6) = W4 m ρ c (Proc.devRef .tc main_v6)
    after_results_simp)).trans (at4_main_v6 m ρ c)
theorem at6_main_arg5 (c : Dev nD) : W6 m ρ c (Proc.devRef .tc main_arg5) = m ((c : Thread nD τ).loc main_arg5) :=
  ((W6_of_ne m ρ c main_arg5 (by decide)).trans (by
    show StableHlo.after hostOps1 (W4 m ρ c) (Proc.devRef .tc main_arg5) = W4 m ρ c (Proc.devRef .tc main_arg5)
    after_results_simp)).trans (at4_main_arg5 m ρ c)
theorem at6_main_v3 (c : Dev nD) : W6 m ρ c (Proc.devRef .tc main_v3) = rEnds0 (F := Ideal) (m ((c : Thread nD τ).loc main_arg1)) :=
  ((W6_of_ne m ρ c main_v3 (by decide)).trans (by
    show StableHlo.after hostOps1 (W4 m ρ c) (Proc.devRef .tc main_v3) = W4 m ρ c (Proc.devRef .tc main_v3)
    after_results_simp)).trans (at4_main_v3 m ρ c)
theorem at6_main_v29 (c : Dev nD) : W6 m ρ c (Proc.devRef .tc main_v29) = rNorm (F := Ideal) (m ((c : Thread nD τ).loc main_arg1)) :=
  ((W6_of_ne m ρ c main_v29 (by decide)).trans (by
    show StableHlo.after hostOps1 (W4 m ρ c) (Proc.devRef .tc main_v29) = W4 m ρ c (Proc.devRef .tc main_v29)
    after_results_simp)).trans (at4_main_v29 m ρ c)
theorem at6_main_arg6 (c : Dev nD) : W6 m ρ c (Proc.devRef .tc main_arg6) = m ((c : Thread nD τ).loc main_arg6) :=
  ((W6_of_ne m ρ c main_arg6 (by decide)).trans (by
    show StableHlo.after hostOps1 (W4 m ρ c) (Proc.devRef .tc main_arg6) = W4 m ρ c (Proc.devRef .tc main_arg6)
    after_results_simp)).trans (at4_main_arg6 m ρ c)
theorem at6_main_arg7 (c : Dev nD) : W6 m ρ c (Proc.devRef .tc main_arg7) = m ((c : Thread nD τ).loc main_arg7) :=
  ((W6_of_ne m ρ c main_arg7 (by decide)).trans (by
    show StableHlo.after hostOps1 (W4 m ρ c) (Proc.devRef .tc main_arg7) = W4 m ρ c (Proc.devRef .tc main_arg7)
    after_results_simp)).trans (at4_main_arg7 m ρ c)
theorem at6_main_arg2 (c : Dev nD) : W6 m ρ c (Proc.devRef .tc main_arg2) = m ((c : Thread nD τ).loc main_arg2) :=
  ((W6_of_ne m ρ c main_arg2 (by decide)).trans (by
    show StableHlo.after hostOps1 (W4 m ρ c) (Proc.devRef .tc main_arg2) = W4 m ρ c (Proc.devRef .tc main_arg2)
    after_results_simp)).trans (at4_main_arg2 m ρ c)
theorem at6_main_arg3 (c : Dev nD) : W6 m ρ c (Proc.devRef .tc main_arg3) = m ((c : Thread nD τ).loc main_arg3) :=
  ((W6_of_ne m ρ c main_arg3 (by decide)).trans (by
    show StableHlo.after hostOps1 (W4 m ρ c) (Proc.devRef .tc main_arg3) = W4 m ρ c (Proc.devRef .tc main_arg3)
    after_results_simp)).trans (at4_main_arg3 m ρ c)
theorem at6_main_arg8 (c : Dev nD) : W6 m ρ c (Proc.devRef .tc main_arg8) = m ((c : Thread nD τ).loc main_arg8) :=
  ((W6_of_ne m ρ c main_arg8 (by decide)).trans (by
    show StableHlo.after hostOps1 (W4 m ρ c) (Proc.devRef .tc main_arg8) = W4 m ρ c (Proc.devRef .tc main_arg8)
    after_results_simp)).trans (at4_main_arg8 m ρ c)
theorem at6_main_arg9 (c : Dev nD) : W6 m ρ c (Proc.devRef .tc main_arg9) = m ((c : Thread nD τ).loc main_arg9) :=
  ((W6_of_ne m ρ c main_arg9 (by decide)).trans (by
    show StableHlo.after hostOps1 (W4 m ρ c) (Proc.devRef .tc main_arg9) = W4 m ρ c (Proc.devRef .tc main_arg9)
    after_results_simp)).trans (at4_main_arg9 m ρ c)
theorem at8_main_arg6 (c : Dev nD) : W8 m ρ c (Proc.devRef .tc main_arg6) = m ((c : Thread nD τ).loc main_arg6) :=
  ((W8_of_ne m ρ c main_arg6 (by decide)).trans (by
    show StableHlo.after hostOps2 (W6 m ρ c) (Proc.devRef .tc main_arg6) = W6 m ρ c (Proc.devRef .tc main_arg6)
    after_results_simp)).trans (at6_main_arg6 m ρ c)
theorem at8_main_v3 (c : Dev nD) : W8 m ρ c (Proc.devRef .tc main_v3) = rEnds0 (F := Ideal) (m ((c : Thread nD τ).loc main_arg1)) :=
  ((W8_of_ne m ρ c main_v3 (by decide)).trans (by
    show StableHlo.after hostOps2 (W6 m ρ c) (Proc.devRef .tc main_v3) = W6 m ρ c (Proc.devRef .tc main_v3)
    after_results_simp)).trans (at6_main_v3 m ρ c)
theorem at8_main_v29 (c : Dev nD) : W8 m ρ c (Proc.devRef .tc main_v29) = rNorm (F := Ideal) (m ((c : Thread nD τ).loc main_arg1)) :=
  ((W8_of_ne m ρ c main_v29 (by decide)).trans (by
    show StableHlo.after hostOps2 (W6 m ρ c) (Proc.devRef .tc main_v29) = W6 m ρ c (Proc.devRef .tc main_v29)
    after_results_simp)).trans (at6_main_v29 m ρ c)
theorem at8_main_v6 (c : Dev nD) : W8 m ρ c (Proc.devRef .tc main_v6) = rEnds1 (F := Ideal) (m ((c : Thread nD τ).loc main_arg1)) :=
  ((W8_of_ne m ρ c main_v6 (by decide)).trans (by
    show StableHlo.after hostOps2 (W6 m ρ c) (Proc.devRef .tc main_v6) = W6 m ρ c (Proc.devRef .tc main_v6)
    after_results_simp)).trans (at6_main_v6 m ρ c)
theorem at8_main_arg7 (c : Dev nD) : W8 m ρ c (Proc.devRef .tc main_arg7) = m ((c : Thread nD τ).loc main_arg7) :=
  ((W8_of_ne m ρ c main_arg7 (by decide)).trans (by
    show StableHlo.after hostOps2 (W6 m ρ c) (Proc.devRef .tc main_arg7) = W6 m ρ c (Proc.devRef .tc main_arg7)
    after_results_simp)).trans (at6_main_arg7 m ρ c)
theorem at8_main_arg2 (c : Dev nD) : W8 m ρ c (Proc.devRef .tc main_arg2) = m ((c : Thread nD τ).loc main_arg2) :=
  ((W8_of_ne m ρ c main_arg2 (by decide)).trans (by
    show StableHlo.after hostOps2 (W6 m ρ c) (Proc.devRef .tc main_arg2) = W6 m ρ c (Proc.devRef .tc main_arg2)
    after_results_simp)).trans (at6_main_arg2 m ρ c)
theorem at8_main_arg3 (c : Dev nD) : W8 m ρ c (Proc.devRef .tc main_arg3) = m ((c : Thread nD τ).loc main_arg3) :=
  ((W8_of_ne m ρ c main_arg3 (by decide)).trans (by
    show StableHlo.after hostOps2 (W6 m ρ c) (Proc.devRef .tc main_arg3) = W6 m ρ c (Proc.devRef .tc main_arg3)
    after_results_simp)).trans (at6_main_arg3 m ρ c)
theorem at8_main_arg8 (c : Dev nD) : W8 m ρ c (Proc.devRef .tc main_arg8) = m ((c : Thread nD τ).loc main_arg8) :=
  ((W8_of_ne m ρ c main_arg8 (by decide)).trans (by
    show StableHlo.after hostOps2 (W6 m ρ c) (Proc.devRef .tc main_arg8) = W6 m ρ c (Proc.devRef .tc main_arg8)
    after_results_simp)).trans (at6_main_arg8 m ρ c)
theorem at8_main_arg9 (c : Dev nD) : W8 m ρ c (Proc.devRef .tc main_arg9) = m ((c : Thread nD τ).loc main_arg9) :=
  ((W8_of_ne m ρ c main_arg9 (by decide)).trans (by
    show StableHlo.after hostOps2 (W6 m ρ c) (Proc.devRef .tc main_arg9) = W6 m ρ c (Proc.devRef .tc main_arg9)
    after_results_simp)).trans (at6_main_arg9 m ρ c)
theorem at9_main_v3 (c : Dev nD) : W9 m ρ c (Proc.devRef .tc main_v3) = rEnds0 (F := Ideal) (m ((c : Thread nD τ).loc main_arg1)) :=
  (W9_of_ne m ρ c main_v3 (by decide)).trans (at8_main_v3 m ρ c)
theorem at9_main_v29 (c : Dev nD) : W9 m ρ c (Proc.devRef .tc main_v29) = rNorm (F := Ideal) (m ((c : Thread nD τ).loc main_arg1)) :=
  (W9_of_ne m ρ c main_v29 (by decide)).trans (at8_main_v29 m ρ c)
theorem at9_main_v6 (c : Dev nD) : W9 m ρ c (Proc.devRef .tc main_v6) = rEnds1 (F := Ideal) (m ((c : Thread nD τ).loc main_arg1)) :=
  (W9_of_ne m ρ c main_v6 (by decide)).trans (at8_main_v6 m ρ c)
theorem at9_main_arg7 (c : Dev nD) : W9 m ρ c (Proc.devRef .tc main_arg7) = m ((c : Thread nD τ).loc main_arg7) :=
  (W9_of_ne m ρ c main_arg7 (by decide)).trans (at8_main_arg7 m ρ c)
theorem at9_main_arg2 (c : Dev nD) : W9 m ρ c (Proc.devRef .tc main_arg2) = m ((c : Thread nD τ).loc main_arg2) :=
  (W9_of_ne m ρ c main_arg2 (by decide)).trans (at8_main_arg2 m ρ c)
theorem at9_main_arg3 (c : Dev nD) : W9 m ρ c (Proc.devRef .tc main_arg3) = m ((c : Thread nD τ).loc main_arg3) :=
  (W9_of_ne m ρ c main_arg3 (by decide)).trans (at8_main_arg3 m ρ c)
theorem at9_main_arg8 (c : Dev nD) : W9 m ρ c (Proc.devRef .tc main_arg8) = m ((c : Thread nD τ).loc main_arg8) :=
  (W9_of_ne m ρ c main_arg8 (by decide)).trans (at8_main_arg8 m ρ c)
theorem at9_main_arg9 (c : Dev nD) : W9 m ρ c (Proc.devRef .tc main_arg9) = m ((c : Thread nD τ).loc main_arg9) :=
  (W9_of_ne m ρ c main_arg9 (by decide)).trans (at8_main_arg9 m ρ c)
theorem at11_main_v6 (c : Dev nD) : W11 m ρ c (Proc.devRef .tc main_v6) = rEnds1 (F := Ideal) (m ((c : Thread nD τ).loc main_arg1)) :=
  ((W11_of_ne m ρ c main_v6 (by decide)).trans (by
    show StableHlo.after hostOps4 (W9 m ρ c) (Proc.devRef .tc main_v6) = W9 m ρ c (Proc.devRef .tc main_v6)
    after_results_simp)).trans (at9_main_v6 m ρ c)
theorem at11_main_arg7 (c : Dev nD) : W11 m ρ c (Proc.devRef .tc main_arg7) = m ((c : Thread nD τ).loc main_arg7) :=
  ((W11_of_ne m ρ c main_arg7 (by decide)).trans (by
    show StableHlo.after hostOps4 (W9 m ρ c) (Proc.devRef .tc main_arg7) = W9 m ρ c (Proc.devRef .tc main_arg7)
    after_results_simp)).trans (at9_main_arg7 m ρ c)
theorem at11_main_arg2 (c : Dev nD) : W11 m ρ c (Proc.devRef .tc main_arg2) = m ((c : Thread nD τ).loc main_arg2) :=
  ((W11_of_ne m ρ c main_arg2 (by decide)).trans (by
    show StableHlo.after hostOps4 (W9 m ρ c) (Proc.devRef .tc main_arg2) = W9 m ρ c (Proc.devRef .tc main_arg2)
    after_results_simp)).trans (at9_main_arg2 m ρ c)
theorem at11_main_arg3 (c : Dev nD) : W11 m ρ c (Proc.devRef .tc main_arg3) = m ((c : Thread nD τ).loc main_arg3) :=
  ((W11_of_ne m ρ c main_arg3 (by decide)).trans (by
    show StableHlo.after hostOps4 (W9 m ρ c) (Proc.devRef .tc main_arg3) = W9 m ρ c (Proc.devRef .tc main_arg3)
    after_results_simp)).trans (at9_main_arg3 m ρ c)
theorem at11_main_arg8 (c : Dev nD) : W11 m ρ c (Proc.devRef .tc main_arg8) = m ((c : Thread nD τ).loc main_arg8) :=
  ((W11_of_ne m ρ c main_arg8 (by decide)).trans (by
    show StableHlo.after hostOps4 (W9 m ρ c) (Proc.devRef .tc main_arg8) = W9 m ρ c (Proc.devRef .tc main_arg8)
    after_results_simp)).trans (at9_main_arg8 m ρ c)
theorem at11_main_arg9 (c : Dev nD) : W11 m ρ c (Proc.devRef .tc main_arg9) = m ((c : Thread nD τ).loc main_arg9) :=
  ((W11_of_ne m ρ c main_arg9 (by decide)).trans (by
    show StableHlo.after hostOps4 (W9 m ρ c) (Proc.devRef .tc main_arg9) = W9 m ρ c (Proc.devRef .tc main_arg9)
    after_results_simp)).trans (at9_main_arg9 m ρ c)
theorem at13_main_arg2 (c : Dev nD) : W13 m ρ c (Proc.devRef .tc main_arg2) = m ((c : Thread nD τ).loc main_arg2) :=
  ((W13_of_ne m ρ c main_arg2 (by decide)).trans (by
    show StableHlo.after hostOps5 (W11 m ρ c) (Proc.devRef .tc main_arg2) = W11 m ρ c (Proc.devRef .tc main_arg2)
    after_results_simp)).trans (at11_main_arg2 m ρ c)
theorem at13_main_arg3 (c : Dev nD) : W13 m ρ c (Proc.devRef .tc main_arg3) = m ((c : Thread nD τ).loc main_arg3) :=
  ((W13_of_ne m ρ c main_arg3 (by decide)).trans (by
    show StableHlo.after hostOps5 (W11 m ρ c) (Proc.devRef .tc main_arg3) = W11 m ρ c (Proc.devRef .tc main_arg3)
    after_results_simp)).trans (at11_main_arg3 m ρ c)
theorem at13_main_arg8 (c : Dev nD) : W13 m ρ c (Proc.devRef .tc main_arg8) = m ((c : Thread nD τ).loc main_arg8) :=
  ((W13_of_ne m ρ c main_arg8 (by decide)).trans (by
    show StableHlo.after hostOps5 (W11 m ρ c) (Proc.devRef .tc main_arg8) = W11 m ρ c (Proc.devRef .tc main_arg8)
    after_results_simp)).trans (at11_main_arg8 m ρ c)
theorem at13_main_arg9 (c : Dev nD) : W13 m ρ c (Proc.devRef .tc main_arg9) = m ((c : Thread nD τ).loc main_arg9) :=
  ((W13_of_ne m ρ c main_arg9 (by decide)).trans (by
    show StableHlo.after hostOps5 (W11 m ρ c) (Proc.devRef .tc main_arg9) = W11 m ρ c (Proc.devRef .tc main_arg9)
    after_results_simp)).trans (at11_main_arg9 m ρ c)

end Cert.KernelIdeal.Hand

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.LibGcnSteps.lean ====
/-
  The four kinds of step of a two-layer graph convolution with a link decoder, each written entry by entry, and
  each shown equal to the same step spelt with whole-array host operations.

  * a matrix product: entry (p, q) is the sum over k of x(p, k) · w(k, q);
  * scaling every row p of a message matrix by one number n(p, 0) of a column;
  * adding a bias row to every row and clamping below at zero;
  * the link score of row p: the sum over h of zs(p, h) · zd(p, h) · w(0, h), plus one bias number.

  Nothing here needs a finite operand: the only laws used are that both spellings name the same entries.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws
import proofs.«174922_j2516850835926_2_alg».proof.Proof.LibLayout
import proofs.«174922_j2516850835926_2_alg».proof.Proof.LibMatmulIx

noncomputable section

namespace Gcn

open Idealize.ShloMosaic Idealize.ShloMosaic.ValueIdx

variable {a b K : ℕ}

/-! ## The steps, entry by entry -/

/-- The matrix product: entry (p, q) is the sum over k of x(p, k) · w(k, q). -/
def mm (x : FVec Ideal ⟨2, ![a, K]⟩ .f32) (w : FVec Ideal ⟨2, ![K, b]⟩ .f32) : FVec Ideal ⟨2, ![a, b]⟩ .f32 :=
  fun i => ∑ k : Fin K, x (ix2 (i 0) k) * w (ix2 k (i 1))

/-- Row p of g multiplied by the number n(p, 0). -/
def scale (g : FVec Ideal ⟨2, ![a, b]⟩ .f32) (n : FVec Ideal ⟨2, ![a, 1]⟩ .f32) : FVec Ideal ⟨2, ![a, b]⟩ .f32 :=
  fun i => g i * n (ix2 (i 0) (0 : Fin 1))

/-- The bias row added to every row, then the maximum with zero. -/
def biasRelu (z : FVec Ideal ⟨2, ![a, b]⟩ .f32) (bias : FVec Ideal ⟨2, ![1, b]⟩ .f32) : FVec Ideal ⟨2, ![a, b]⟩ .f32 :=
  fun i => max (z i + bias (ix2 (0 : Fin 1) (i 1))) (Ideal.ofBits .f32 0x00000000#32)

/-- The link score of row p: the sum over h of zs(p, h) · zd(p, h) · w(0, h), plus the bias number. -/
def decode (zs zd : FVec Ideal ⟨2, ![a, b]⟩ .f32) (w : FVec Ideal ⟨2, ![1, b]⟩ .f32) (bias : FVec Ideal ⟨2, ![1, 1]⟩ .f32) :
    FVec Ideal ⟨2, ![a, 1]⟩ .f32 :=
  fun i => (∑ h : Fin b, zs (ix2 (i 0) h) * zd (ix2 (i 0) h) * w (ix2 (0 : Fin 1) h)) + bias (ix2 (0 : Fin 1) (0 : Fin 1))

theorem mm_apply (x : FVec Ideal ⟨2, ![a, K]⟩ .f32) (w : FVec Ideal ⟨2, ![K, b]⟩ .f32) (p : Fin a) (q : Fin b) :
    mm x w (ix2 p q) = ∑ k : Fin K, x (ix2 p k) * w (ix2 k q) := rfl

theorem scale_apply (g : FVec Ideal ⟨2, ![a, b]⟩ .f32) (n : FVec Ideal ⟨2, ![a, 1]⟩ .f32) (p : Fin a) (q : Fin b) :
    scale g n (ix2 p q) = g (ix2 p q) * n (ix2 p (0 : Fin 1)) := rfl

theorem biasRelu_apply (z : FVec Ideal ⟨2, ![a, b]⟩ .f32) (bias : FVec Ideal ⟨2, ![1, b]⟩ .f32) (p : Fin a) (q : Fin b) :
    biasRelu z bias (ix2 p q) = max (z (ix2 p q) + bias (ix2 (0 : Fin 1) q)) (Ideal.ofBits .f32 0x00000000#32) := rfl

theorem decode_apply (zs zd : FVec Ideal ⟨2, ![a, b]⟩ .f32) (w : FVec Ideal ⟨2, ![1, b]⟩ .f32) (bias : FVec Ideal ⟨2, ![1, 1]⟩ .f32)
    (p : Fin a) (u : Fin 1) :
    decode zs zd w bias (ix2 p u)
      = (∑ h : Fin b, zs (ix2 p h) * zd (ix2 p h) * w (ix2 (0 : Fin 1) h)) + bias (ix2 (0 : Fin 1) (0 : Fin 1)) := rfl

/-! ## The same steps spelt with host operations -/

/-- The product is the host's `dot_general` contracting the left operand's columns with the right operand's rows. -/
theorem mm_eq_dotGeneral (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (x : FVec Ideal ⟨2, ![a, K]⟩ .f32) (w : FVec Ideal ⟨2, ![K, b]⟩ .f32) :
    mm x w = Host.dotGeneral D prec x w := by
  funext i
  obtain ⟨p, q, rfl⟩ : ∃ (p : Fin a) (q : Fin b), i = ix2 p q := ⟨i 0, i 1, eq_ix2 i⟩
  exact (mm_apply x w p q).trans (MatmulIx.dotGeneral_ix2 D hr hs hl0 hl1 hr0 hr1 prec x w p q).symm

/-- A vector of a entries cast to a column and used to scale the rows is the host's product with the vector broadcast
    to a column and then along the rows. -/
theorem scale_eq_host (g : FVec Ideal ⟨2, ![a, b]⟩ .f32) (n : FVec Ideal ⟨1, ![a]⟩ .f32)
    (hc : (⟨1, ![a]⟩ : Shape).ShapeCasts ⟨2, ![a, 1]⟩)
    (h1 : (⟨1, ![a]⟩ : Shape).BroadcastsInDim ⟨2, ![a, 1]⟩ ![0])
    (h2 : (⟨2, ![a, 1]⟩ : Shape).BroadcastsInDim ⟨2, ![a, b]⟩ ![0, 1]) :
    scale g (shapeCast ⟨2, ![a, 1]⟩ n hc)
      = mulf g (broadcastInDim ⟨2, ![a, b]⟩ ![0, 1] h2 (broadcastInDim ⟨2, ![a, 1]⟩ ![0] h1 n)) := by
  funext i
  obtain ⟨p, q, rfl⟩ : ∃ (p : Fin a) (q : Fin b), i = ix2 p q := ⟨i 0, i 1, eq_ix2 i⟩
  have e1 : shapeCast ⟨2, ![a, 1]⟩ n hc (ix2 p (0 : Fin 1)) = n (ix1 p) := Cert.Attn.Layout.shapeCast_a_a1_apply n hc p 0
  have e2 : broadcastInDim ⟨2, ![a, b]⟩ ![0, 1] h2 (broadcastInDim ⟨2, ![a, 1]⟩ ![0] h1 n) (ix2 p q)
      = broadcastInDim ⟨2, ![a, 1]⟩ ![0] h1 n (ix2 p (0 : Fin 1)) :=
    broadcastInDim_apply ![0, 1] h2 _ (ix2 p q) (ix2 p (0 : Fin 1)) (fun c => by
      match c with
      | ⟨0, _⟩ =>
        show p.val = if a = 1 then 0 else p.val
        split
        · have := p.isLt; omega
        · rfl
      | ⟨1, _⟩ => show (0 : ℕ) = if (1 : ℕ) = 1 then 0 else _; rw [if_pos rfl])
  have e3 : broadcastInDim ⟨2, ![a, 1]⟩ ![0] h1 n (ix2 p (0 : Fin 1)) = n (ix1 p) :=
    broadcastInDim_apply ![0] h1 n (ix2 p (0 : Fin 1)) (ix1 p) (fun c => by
      match c with
      | ⟨0, _⟩ =>
        show p.val = if a = 1 then 0 else p.val
        split
        · have := p.isLt; omega
        · rfl)
  show g (ix2 p q) * shapeCast ⟨2, ![a, 1]⟩ n hc (ix2 p (0 : Fin 1)) = g (ix2 p q) * _
  rw [e1, e2, e3]

/-- A bias vector cast to one row, added to every row and clamped at zero, is the host's sum with the vector broadcast to
    a row and then to the matrix, and its maximum with the zero constant broadcast to the matrix. -/
theorem biasRelu_eq_host (z : FVec Ideal ⟨2, ![a, b]⟩ .f32) (bias : FVec Ideal ⟨1, ![b]⟩ .f32)
    (hc : (⟨1, ![b]⟩ : Shape).ShapeCasts ⟨2, ![1, b]⟩)
    (h1 : (⟨1, ![b]⟩ : Shape).BroadcastsInDim ⟨2, ![1, b]⟩ ![1])
    (h2 : (⟨2, ![1, b]⟩ : Shape).BroadcastsInDim ⟨2, ![a, b]⟩ ![0, 1])
    (h0 : (⟨0, ![]⟩ : Shape).BroadcastsInDim ⟨2, ![a, b]⟩ ![]) :
    biasRelu z (shapeCast ⟨2, ![1, b]⟩ bias hc)
      = maximumf (addf z (broadcastInDim ⟨2, ![a, b]⟩ ![0, 1] h2 (broadcastInDim ⟨2, ![1, b]⟩ ![1] h1 bias)))
          (broadcastInDim ⟨2, ![a, b]⟩ ![] h0 (constant (F := Ideal) ⟨0, ![]⟩ .f32 0x00000000#32)) := by
  funext i
  obtain ⟨p, q, rfl⟩ : ∃ (p : Fin a) (q : Fin b), i = ix2 p q := ⟨i 0, i 1, eq_ix2 i⟩
  have e1 : shapeCast ⟨2, ![1, b]⟩ bias hc (ix2 (0 : Fin 1) q) = bias (ix1 q) := shapeCast_a_1a_apply bias hc 0 q
  have e2 : broadcastInDim ⟨2, ![a, b]⟩ ![0, 1] h2 (broadcastInDim ⟨2, ![1, b]⟩ ![1] h1 bias) (ix2 p q)
      = broadcastInDim ⟨2, ![1, b]⟩ ![1] h1 bias (ix2 (0 : Fin 1) q) := broadcastInDim_oneRow_apply h2 _ p q
  have e3 : broadcastInDim ⟨2, ![1, b]⟩ ![1] h1 bias (ix2 (0 : Fin 1) q) = bias (ix1 q) :=
    broadcastInDim_apply ![1] h1 bias (ix2 (0 : Fin 1) q) (ix1 q) (fun c => by
      match c with
      | ⟨0, _⟩ =>
        show q.val = if b = 1 then 0 else q.val
        split
        · have := q.isLt; omega
        · rfl)
  have e4 : broadcastInDim ⟨2, ![a, b]⟩ ![] h0 (constant (F := Ideal) ⟨0, ![]⟩ .f32 0x00000000#32) (ix2 p q)
      = Ideal.ofBits .f32 0x00000000#32 :=
    broadcastInDim_apply ![] h0 (constant (F := Ideal) ⟨0, ![]⟩ .f32 0x00000000#32) (ix2 p q) ix0 (fun c => c.elim0)
  show max (z (ix2 p q) + shapeCast ⟨2, ![1, b]⟩ bias hc (ix2 (0 : Fin 1) q)) (Ideal.ofBits .f32 0x00000000#32)
    = max (z (ix2 p q) + _) _
  rw [e1, e2, e3, e4]

/-- The link score with the weight column cast to a row and the bias number cast to a one-by-one matrix is the host's
    product of the entrywise product zs · zd with the weight column, plus the bias broadcast to a column. -/
theorem decode_eq_host (D : DotDims ⟨2, ![a, b]⟩ ⟨2, ![b, 1]⟩ ⟨2, ![a, 1]⟩) (hr : D.contr.rank = 1)
    (hs : D.contr.size ⟨0, by omega⟩ = b)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (zs zd : FVec Ideal ⟨2, ![a, b]⟩ .f32) (w : FVec Ideal ⟨2, ![b, 1]⟩ .f32) (bias : FVec Ideal ⟨1, ![1]⟩ .f32)
    (hcw : (⟨2, ![b, 1]⟩ : Shape).ShapeCasts ⟨2, ![1, b]⟩) (hcb : (⟨1, ![1]⟩ : Shape).ShapeCasts ⟨2, ![1, 1]⟩)
    (h1 : (⟨1, ![1]⟩ : Shape).BroadcastsInDim ⟨2, ![1, 1]⟩ ![1])
    (h2 : (⟨2, ![1, 1]⟩ : Shape).BroadcastsInDim ⟨2, ![a, 1]⟩ ![0, 1]) :
    decode zs zd (shapeCast ⟨2, ![1, b]⟩ w hcw) (shapeCast ⟨2, ![1, 1]⟩ bias hcb)
      = addf (Host.dotGeneral D prec (mulf zs zd) w)
          (broadcastInDim ⟨2, ![a, 1]⟩ ![0, 1] h2 (broadcastInDim ⟨2, ![1, 1]⟩ ![1] h1 bias)) := by
  funext i
  obtain ⟨p, u, rfl⟩ : ∃ (p : Fin a) (u : Fin 1), i = ix2 p u := ⟨i 0, i 1, eq_ix2 i⟩
  obtain rfl : u = 0 := Subsingleton.elim _ _
  have ew : ∀ h : Fin b, shapeCast ⟨2, ![1, b]⟩ w hcw (ix2 (0 : Fin 1) h) = w (ix2 h (0 : Fin 1)) := fun h =>
    shapeCast_apply w hcw (ix2 (0 : Fin 1) h) (ix2 h (0 : Fin 1)) (by
      rw [Shape.rowMajor_val_two, Shape.rowMajor_val_two]
      show h.val * 1 + 0 = 0 * b + h.val
      omega)
  have eb : shapeCast ⟨2, ![1, 1]⟩ bias hcb (ix2 (0 : Fin 1) (0 : Fin 1)) = bias (ix1 (0 : Fin 1)) :=
    shapeCast_a_1a_apply bias hcb 0 0
  have e2 : broadcastInDim ⟨2, ![a, 1]⟩ ![0, 1] h2 (broadcastInDim ⟨2, ![1, 1]⟩ ![1] h1 bias) (ix2 p (0 : Fin 1))
      = broadcastInDim ⟨2, ![1, 1]⟩ ![1] h1 bias (ix2 (0 : Fin 1) (0 : Fin 1)) := broadcastInDim_oneRow_apply h2 _ p 0
  have e3 : broadcastInDim ⟨2, ![1, 1]⟩ ![1] h1 bias (ix2 (0 : Fin 1) (0 : Fin 1)) = bias (ix1 (0 : Fin 1)) :=
    broadcastInDim_apply ![1] h1 bias (ix2 (0 : Fin 1) (0 : Fin 1)) (ix1 (0 : Fin 1)) (fun c => by
      match c with
      | ⟨0, _⟩ => show (0 : ℕ) = if (1 : ℕ) = 1 then 0 else _; rw [if_pos rfl])
  have ed : Host.dotGeneral D prec (mulf zs zd) w (ix2 p (0 : Fin 1))
      = ∑ k : Fin b, (mulf zs zd) (ix2 p k) * w (ix2 k (0 : Fin 1)) :=
    MatmulIx.dotGeneral_ix2 D hr hs hl0 hl1 hr0 hr1 prec (mulf zs zd) w p 0
  show (∑ h : Fin b, zs (ix2 p h) * zd (ix2 p h) * shapeCast ⟨2, ![1, b]⟩ w hcw (ix2 (0 : Fin 1) h))
      + shapeCast ⟨2, ![1, 1]⟩ bias hcb (ix2 (0 : Fin 1) (0 : Fin 1))
    = Host.dotGeneral D prec (mulf zs zd) w (ix2 p (0 : Fin 1)) + _
  rw [eb, e2, e3, ed]
  exact congrArg (· + bias (ix1 (0 : Fin 1))) (Finset.sum_congr rfl fun h _ => by rw [ew h]; rfl)

end Gcn

end
-- ==== Proof.RefDots.lean ====
/-
  The coordinates the reference's three matrix products read: in each, the left operand is indexed by the output's
  row and the contracted position, the right operand by the contracted position and the output's column.
-/
import proofs.«174922_j2516850835926_2_alg».proof.Proof.Gen.ReferenceIdeal

noncomputable section

namespace Cert.ReferenceIdeal.Hand

open Cert.ReferenceIdeal Cert.ReferenceIdeal.Gen Idealize.ShloMosaic

theorem dR1_l0 (i : S100000x64.Idx) (q : dot_S100000x128_S128x64_S100000x64_1_0_0_1_n_n.contr.Idx) : (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem dR1_l1 (i : S100000x64.Idx) (q : dot_S100000x128_S128x64_S100000x64_1_0_0_1_n_n.contr.Idx) : (dot_S100000x128_S128x64_S100000x64_1_0_0_1_n_n.lhsIdx i q 1).val = (q ⟨0, by decide⟩).val :=
  dot_S100000x128_S128x64_S100000x64_1_0_0_1_n_n.lhsIdx_val_of_single rfl i q
theorem dR1_r0 (i : S100000x64.Idx) (q : dot_S100000x128_S128x64_S100000x64_1_0_0_1_n_n.contr.Idx) : (dot_S100000x128_S128x64_S100000x64_1_0_0_1_n_n.rhsIdx i q 0).val = (q ⟨0, by decide⟩).val :=
  dot_S100000x128_S128x64_S100000x64_1_0_0_1_n_n.rhsIdx_val_of_single rfl i q
theorem dR1_r1 (i : S100000x64.Idx) (q : dot_S100000x128_S128x64_S100000x64_1_0_0_1_n_n.contr.Idx) : (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

theorem dR2_l0 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem dR2_l1 (i : S100000x64.Idx) (q : dot_S100000x64_S64x64_S100000x64_1_0_0_1_n_n.contr.Idx) : (dot_S100000x64_S64x64_S100000x64_1_0_0_1_n_n.lhsIdx i q 1).val = (q ⟨0, by decide⟩).val :=
  dot_S100000x64_S64x64_S100000x64_1_0_0_1_n_n.lhsIdx_val_of_single rfl i q
theorem dR2_r0 (i : S100000x64.Idx) (q : dot_S100000x64_S64x64_S100000x64_1_0_0_1_n_n.contr.Idx) : (dot_S100000x64_S64x64_S100000x64_1_0_0_1_n_n.rhsIdx i q 0).val = (q ⟨0, by decide⟩).val :=
  dot_S100000x64_S64x64_S100000x64_1_0_0_1_n_n.rhsIdx_val_of_single rfl i q
theorem dR2_r1 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

theorem dR3_l0 (i : S500000x1.Idx) (q : dot_S500000x64_S64x1_S500000x1_1_0_0_1_n_n.contr.Idx) : (dot_S500000x64_S64x1_S500000x1_1_0_0_1_n_n.lhsIdx i q 0).val = (i 0).val := by
  unfold DotDims.lhsIdx
  rw [dif_neg (show ¬(0 : Fin S500000x64.rank) ∈ dot_S500000x64_S64x1_S500000x1_1_0_0_1_n_n.lhsBatch by decide), dif_pos (show (0 : Fin S500000x64.rank) ∈ dot_S500000x64_S64x1_S500000x1_1_0_0_1_n_n.lhsNonContracting by decide)]
  rfl
theorem dR3_l1 (i : S500000x1.Idx) (q : dot_S500000x64_S64x1_S500000x1_1_0_0_1_n_n.contr.Idx) : (dot_S500000x64_S64x1_S500000x1_1_0_0_1_n_n.lhsIdx i q 1).val = (q ⟨0, by decide⟩).val :=
  dot_S500000x64_S64x1_S500000x1_1_0_0_1_n_n.lhsIdx_val_of_single rfl i q
theorem dR3_r0 (i : S500000x1.Idx) (q : dot_S500000x64_S64x1_S500000x1_1_0_0_1_n_n.contr.Idx) : (dot_S500000x64_S64x1_S500000x1_1_0_0_1_n_n.rhsIdx i q 0).val = (q ⟨0, by decide⟩).val :=
  dot_S500000x64_S64x1_S500000x1_1_0_0_1_n_n.rhsIdx_val_of_single rfl i q
theorem dR3_r1 (i : S500000x1.Idx) (q : dot_S500000x64_S64x1_S500000x1_1_0_0_1_n_n.contr.Idx) : (dot_S500000x64_S64x1_S500000x1_1_0_0_1_n_n.rhsIdx i q 1).val = (i 1).val := by
  unfold DotDims.rhsIdx
  rw [dif_neg (show ¬(1 : Fin S64x1.rank) ∈ dot_S500000x64_S64x1_S500000x1_1_0_0_1_n_n.rhsBatch by decide), dif_pos (show (1 : Fin S64x1.rank) ∈ dot_S500000x64_S64x1_S500000x1_1_0_0_1_n_n.rhsNonContracting by decide)]
  rfl

end Cert.ReferenceIdeal.Hand

end
-- ==== Proof.Pay.lean ====
/-
  What each of the eight kernel bodies stores, at the ideal values, as a function of the blocks it loads: the two
  matrix-product bodies store the product of their blocks (a change of float format is the identity on extended
  reals, and a product accumulated into the zero splat is the plain sum of products); the two scaling bodies
  multiply each row by its entry of the column block; the two bias bodies add the bias row and clamp at zero; the
  two decoder bodies take each row's weighted sum of products and add the bias number.
-/
import proofs.«174922_j2516850835926_2_alg».proof.Proof.Gen.KernelIdeal.Skeleton
import proofs.«174922_j2516850835926_2_alg».proof.Proof.LibGcnSteps

noncomputable section

namespace Cert.KernelIdeal.Hand

open Cert.KernelIdeal Cert.KernelIdeal.Gen Idealize.ShloMosaic Idealize.ShloMosaic.ValueIdx

/-! ## The coordinates the blocks' dimension numbers read -/

theorem dK0_l0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem dK0_l1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem dK0_r0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem dK0_r1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

theorem dK3_l0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dK3_l1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem dK3_r0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem dK3_r1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-! ## The bodies' stored values -/

theorem pay0_eq (x0 : Vec Ideal S10000x128 .f32) (x1 : Vec Ideal S128x64 .f32) :
    k0_pay1 x0 x1 = Gcn.mm (a := 10000) (K := 128) (b := 64) x0 x1 := by
  funext j
  obtain ⟨p, q, rfl⟩ : ∃ (p : Fin 10000) (q : Fin 64), j = ix2 p q := ⟨j 0, j 1, eq_ix2 j⟩
  show matmul dot_S10000x128_S128x64_S10000x64_1_0_0_1_n_n none (truncf .bf16 x0 bitsLt_bf16_f32) (truncf .bf16 x1 bitsLt_bf16_f32)
      (constant (F := Ideal) S10000x64 .f32 0x00000000#32) (ix2 p q) = ∑ k : Fin 128, x0 (ix2 p k) * x1 (ix2 k q)
  exact MatmulIx.matmul_zero_ix2 dot_S10000x128_S128x64_S10000x64_1_0_0_1_n_n rfl rfl dK0_l0 dK0_l1 dK0_r0 dK0_r1 none
    (truncf .bf16 x0 bitsLt_bf16_f32) (truncf .bf16 x1 bitsLt_bf16_f32) p q

theorem pay3_eq (x0 : Vec Ideal S10000x64 .f32) (x1 : Vec Ideal S64x64 .f32) :
    k3_pay1 x0 x1 = Gcn.mm (a := 10000) (K := 64) (b := 64) x0 x1 := by
  funext j
  obtain ⟨p, q, rfl⟩ : ∃ (p : Fin 10000) (q : Fin 64), j = ix2 p q := ⟨j 0, j 1, eq_ix2 j⟩
  show matmul dot_S10000x64_S64x64_S10000x64_1_0_0_1_n_n none
      (truncf .bf16 (shapeCast S10000x64 x0 shapeCasts_S10000x64_S10000x64) bitsLt_bf16_f32) (truncf .bf16 x1 bitsLt_bf16_f32)
      (constant (F := Ideal) S10000x64 .f32 0x00000000#32) (ix2 p q) = ∑ k : Fin 64, x0 (ix2 p k) * x1 (ix2 k q)
  rw [shapeCast_self]
  exact MatmulIx.matmul_zero_ix2 dot_S10000x64_S64x64_S10000x64_1_0_0_1_n_n rfl rfl dK3_l0 dK3_l1 dK3_r0 dK3_r1 none
    (truncf .bf16 x0 bitsLt_bf16_f32) (truncf .bf16 x1 bitsLt_bf16_f32) p q

theorem pay1_eq (x0 : Vec Ideal S6000x64 .f32) (x1 : Vec Ideal S6000x1 .f32) :
    k1_pay1 x0 x1 = Gcn.scale (a := 6000) (b := 64) x0 x1 := by
  funext j
  obtain ⟨p, q, rfl⟩ : ∃ (p : Fin 6000) (q : Fin 64), j = ix2 p q := ⟨j 0, j 1, eq_ix2 j⟩
  have e : broadcastTo S6000x64 x1 broadcasts_S6000x1_S6000x64 (ix2 p q) = x1 (ix2 p (0 : Fin 1)) :=
    Cert.Attn.Layout.broadcastTo_a1_ab_apply (a := 6000) (b := 64) x1 broadcasts_S6000x1_S6000x64 p q
  show (shapeCast S6000x64 x0 shapeCasts_S6000x64_S6000x64) (ix2 p q)
      * broadcastTo S6000x64 (shapeCast S6000x1 x1 shapeCasts_S6000x1_S6000x1) broadcasts_S6000x1_S6000x64 (ix2 p q)
    = x0 (ix2 p q) * x1 (ix2 p (0 : Fin 1))
  rw [shapeCast_self, shapeCast_self, e]

theorem pay4_eq (x0 : Vec Ideal S6000x64 .f32) (x1 : Vec Ideal S6000x1 .f32) :
    k4_pay1 x0 x1 = Gcn.scale (a := 6000) (b := 64) x0 x1 := by
  funext j
  obtain ⟨p, q, rfl⟩ : ∃ (p : Fin 6000) (q : Fin 64), j = ix2 p q := ⟨j 0, j 1, eq_ix2 j⟩
  have e : broadcastTo S6000x64 x1 broadcasts_S6000x1_S6000x64 (ix2 p q) = x1 (ix2 p (0 : Fin 1)) :=
    Cert.Attn.Layout.broadcastTo_a1_ab_apply (a := 6000) (b := 64) x1 broadcasts_S6000x1_S6000x64 p q
  show (shapeCast S6000x64 x0 shapeCasts_S6000x64_S6000x64) (ix2 p q)
      * broadcastTo S6000x64 (shapeCast S6000x1 x1 shapeCasts_S6000x1_S6000x1) broadcasts_S6000x1_S6000x64 (ix2 p q)
    = x0 (ix2 p q) * x1 (ix2 p (0 : Fin 1))
  rw [shapeCast_self, shapeCast_self, e]

theorem pay2_eq (x0 : Vec Ideal S5000x64 .f32) (x1 : Vec Ideal S1x64 .f32) :
    k2_pay1 x0 x1 = Gcn.biasRelu (a := 5000) (b := 64) x0 x1 := by
  funext j
  obtain ⟨p, q, rfl⟩ : ∃ (p : Fin 5000) (q : Fin 64), j = ix2 p q := ⟨j 0, j 1, eq_ix2 j⟩
  have e : broadcastTo S5000x64 x1 broadcasts_S1x64_S5000x64 (ix2 p q) = x1 (ix2 (0 : Fin 1) q) :=
    broadcastTo_1b_ab_apply (a := 5000) (b := 64) x1 broadcasts_S1x64_S5000x64 p q
  show max ((shapeCast S5000x64 x0 shapeCasts_S5000x64_S5000x64) (ix2 p q)
        + broadcastTo S5000x64 (shapeCast S1x64 x1 shapeCasts_S1x64_S1x64) broadcasts_S1x64_S5000x64 (ix2 p q))
      (Ideal.ofBits .f32 0x00000000#32)
    = max (x0 (ix2 p q) + x1 (ix2 (0 : Fin 1) q)) (Ideal.ofBits .f32 0x00000000#32)
  rw [shapeCast_self, shapeCast_self, e]

theorem pay5_eq (x0 : Vec Ideal S5000x64 .f32) (x1 : Vec Ideal S1x64 .f32) :
    k5_pay1 x0 x1 = Gcn.biasRelu (a := 5000) (b := 64) x0 x1 := by
  funext j
  obtain ⟨p, q, rfl⟩ : ∃ (p : Fin 5000) (q : Fin 64), j = ix2 p q := ⟨j 0, j 1, eq_ix2 j⟩
  have e : broadcastTo S5000x64 x1 broadcasts_S1x64_S5000x64 (ix2 p q) = x1 (ix2 (0 : Fin 1) q) :=
    broadcastTo_1b_ab_apply (a := 5000) (b := 64) x1 broadcasts_S1x64_S5000x64 p q
  show max ((shapeCast S5000x64 x0 shapeCasts_S5000x64_S5000x64) (ix2 p q)
        + broadcastTo S5000x64 (shapeCast S1x64 x1 shapeCasts_S1x64_S1x64) broadcasts_S1x64_S5000x64 (ix2 p q))
      (Ideal.ofBits .f32 0x00000000#32)
    = max (x0 (ix2 p q) + x1 (ix2 (0 : Fin 1) q)) (Ideal.ofBits .f32 0x00000000#32)
  rw [shapeCast_self, shapeCast_self, e]

theorem pay6_eq (x0 x1 : Vec Ideal S5000x64 .f32) (x2 : Vec Ideal S1x64 .f32) (x3 : Vec Ideal S1x1 .f32) :
    k6_pay1 x0 x1 x2 x3 = Gcn.decode (a := 5000) (b := 64) x0 x1 x2 x3 := by
  funext j
  obtain ⟨p, u, rfl⟩ : ∃ (p : Fin 5000) (u : Fin 1), j = ix2 p u := ⟨j 0, j 1, eq_ix2 j⟩
  obtain rfl : u = 0 := Subsingleton.elim _ _
  have ew : ∀ h : Fin 64, broadcastTo S5000x64 x2 broadcasts_S1x64_S5000x64 (ix2 p h) = x2 (ix2 (0 : Fin 1) h) := fun h =>
    broadcastTo_1b_ab_apply (a := 5000) (b := 64) x2 broadcasts_S1x64_S5000x64 p h
  have eb : broadcastTo S5000x1 x3 broadcasts_S1x1_S5000x1 (ix2 p (0 : Fin 1)) = x3 (ix2 (0 : Fin 1) (0 : Fin 1)) :=
    broadcastTo_1b_ab_apply (a := 5000) (b := 1) x3 broadcasts_S1x1_S5000x1 p 0
  show (shapeCast S5000x1 (multiReduction (F := Ideal) .add [1] S5000
          (mulf (mulf (shapeCast S5000x64 x0 shapeCasts_S5000x64_S5000x64) (shapeCast S5000x64 x1 shapeCasts_S5000x64_S5000x64))
            (broadcastTo S5000x64 (shapeCast S1x64 x2 shapeCasts_S1x64_S1x64) broadcasts_S1x64_S5000x64))
          0x00000000#32 reduces_S5000x64_S5000 (.inl rfl) rfl) shapeCasts_S5000_S5000x1) (ix2 p (0 : Fin 1))
      + broadcastTo S5000x1 (shapeCast S1x1 x3 shapeCasts_S1x1_S1x1) broadcasts_S1x1_S5000x1 (ix2 p (0 : Fin 1))
    = (∑ h : Fin 64, x0 (ix2 p h) * x1 (ix2 p h) * x2 (ix2 (0 : Fin 1) h)) + x3 (ix2 (0 : Fin 1) (0 : Fin 1))
  rw [shapeCast_self, shapeCast_self, shapeCast_self, shapeCast_self, eb,
    Cert.Attn.Layout.shapeCast_a_a1_apply (a := 5000) _ shapeCasts_S5000_S5000x1 p 0,
    Cert.Attn.Layout.rowSum_apply (a := 5000) (b := 64) _ reduces_S5000x64_S5000 (.inl rfl) rfl p]
  exact congrArg (· + x3 (ix2 (0 : Fin 1) (0 : Fin 1))) (Finset.sum_congr rfl fun h _ => by
    show x0 (ix2 p h) * x1 (ix2 p h) * broadcastTo S5000x64 x2 broadcasts_S1x64_S5000x64 (ix2 p h) = _
    rw [ew h])

theorem pay7_eq (x0 x1 : Vec Ideal S5000x64 .f32) (x2 : Vec Ideal S1x64 .f32) (x3 : Vec Ideal S1x1 .f32) :
    k7_pay1 x0 x1 x2 x3 = Gcn.decode (a := 5000) (b := 64) x0 x1 x2 x3 := by
  funext j
  obtain ⟨p, u, rfl⟩ : ∃ (p : Fin 5000) (u : Fin 1), j = ix2 p u := ⟨j 0, j 1, eq_ix2 j⟩
  obtain rfl : u = 0 := Subsingleton.elim _ _
  have ew : ∀ h : Fin 64, broadcastTo S5000x64 x2 broadcasts_S1x64_S5000x64 (ix2 p h) = x2 (ix2 (0 : Fin 1) h) := fun h =>
    broadcastTo_1b_ab_apply (a := 5000) (b := 64) x2 broadcasts_S1x64_S5000x64 p h
  have eb : broadcastTo S5000x1 x3 broadcasts_S1x1_S5000x1 (ix2 p (0 : Fin 1)) = x3 (ix2 (0 : Fin 1) (0 : Fin 1)) :=
    broadcastTo_1b_ab_apply (a := 5000) (b := 1) x3 broadcasts_S1x1_S5000x1 p 0
  show (shapeCast S5000x1 (multiReduction (F := Ideal) .add [1] S5000
          (mulf (mulf (shapeCast S5000x64 x0 shapeCasts_S5000x64_S5000x64) (shapeCast S5000x64 x1 shapeCasts_S5000x64_S5000x64))
            (broadcastTo S5000x64 (shapeCast S1x64 x2 shapeCasts_S1x64_S1x64) broadcasts_S1x64_S5000x64))
          0x00000000#32 reduces_S5000x64_S5000 (.inl rfl) rfl) shapeCasts_S5000_S5000x1) (ix2 p (0 : Fin 1))
      + broadcastTo S5000x1 (shapeCast S1x1 x3 shapeCasts_S1x1_S1x1) broadcasts_S1x1_S5000x1 (ix2 p (0 : Fin 1))
    = (∑ h : Fin 64, x0 (ix2 p h) * x1 (ix2 p h) * x2 (ix2 (0 : Fin 1) h)) + x3 (ix2 (0 : Fin 1) (0 : Fin 1))
  rw [shapeCast_self, shapeCast_self, shapeCast_self, shapeCast_self, eb,
    Cert.Attn.Layout.shapeCast_a_a1_apply (a := 5000) _ shapeCasts_S5000_S5000x1 p 0,
    Cert.Attn.Layout.rowSum_apply (a := 5000) (b := 64) _ reduces_S5000x64_S5000 (.inl rfl) rfl p]
  exact congrArg (· + x3 (ix2 (0 : Fin 1) (0 : Fin 1))) (Finset.sum_congr rfl fun h _ => by
    show x0 (ix2 p h) * x1 (ix2 p h) * broadcastTo S5000x64 x2 broadcasts_S1x64_S5000x64 (ix2 p h) = _
    rw [ew h])

end Cert.KernelIdeal.Hand

end
-- ==== Proof.Reg0.lean ====
/-
  Region 0 of the idealized kernel program (the first layer's projection x · W1): what its output array holds after the region, as one function of
  the arrays the region finds on entry. Point t of the grid stages rows 10000·t … 10000·t + 9999 of each row-tiled operand
  and the whole of each untiled one, the body stores the product of the row block with the whole weight matrix, and the write-back puts that block at the same rows of the output;
  the 10 blocks tile the 100000 rows.
-/
import proofs.«174922_j2516850835926_2_alg».proof.Proof.Gen.KernelIdeal.Frame
import proofs.«174922_j2516850835926_2_alg».proof.Proof.Pay
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: a row-tiled window's block index is (t, 0), an untiled one's (0, 0). -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the function of the entry arrays. -/
theorem flushed0 (c : Dev nD) (t : Fin cfg0.N) :
    (dat0 V c).flushed 2 t = ((cfg0.win 2).blk t).view.read (Elt Ideal) (Gcn.mm (a := 100000) (K := 128) (b := 64) (V c main_arg0) (V c main_arg4)) := by
  show (cfg0.win 2).cut (grid0.coords t) ((dat0 V c).after 2 t) = _
  rw [after0_2]
  unfold out0_2
  rw [View.canon_unit_zero hz0]
  simp only [View.ld_unit_zero (S := S10000x128) hz0, View.ld_unit_zero (S := S128x64) hz0]
  rw [pay0_eq]
  obtain ⟨e0, e1, e2, e3, e4, e5⟩ := idx0 t
  funext j
  let A : S100000x128.Idx → EReal := V c main_arg0
  let B : S128x64.Idx → EReal := V c main_arg4
  show (∑ x : Fin 128, A (((cfg0.win 0).blk t).view.emb (ix2 (j 0) x)) * B (((cfg0.win 1).blk t).view.emb (ix2 x (j 1))))
    = ∑ x : Fin 128, A (ix2 ((((cfg0.win 2).blk t).view.emb j) 0) x) * B (ix2 x ((((cfg0.win 2).blk t).view.emb j) 1))
  have hj0 : (j 0).val < 10000 := (j 0).isLt
  have hj1 : (j 1).val < 64 := (j 1).isLt
  refine Finset.sum_congr rfl fun x _ => ?_
  have h0 : ((cfg0.win 0).blk t).view.emb (ix2 (j 0) x) = ix2 ((((cfg0.win 2).blk t).view.emb j) 0) x := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * x.val = x.val; omega
  have h1 : ((cfg0.win 1).blk t).view.emb (ix2 x (j 1)) = ix2 x ((((cfg0.win 2).blk t).view.emb j) 1) := by
    funext a; apply Fin.ext
    match a with
    | ⟨0, _⟩ => show win0_1.index t (0 : Fin 2) * 128 + 1 * x.val = x.val; omega
    | ⟨1, _⟩ => show win0_1.index t (1 : Fin 2) * 64 + 1 * (j 1).val = win0_2.index t (1 : Fin 2) * 64 + 1 * (j 1).val; omega
  exact congrArg₂ (· * ·) (congrArg A h0) (congrArg B h1)

/-- An index of the output array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Row r of the output is in the block of point r / 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  have ht : (i 0).val / 10000 < cfg0.N := by rw [hN]; omega
  obtain ⟨e0, e1, e2, e3, e4, e5⟩ := idx0 ⟨(i 0).val / 10000, ht⟩
  refine ⟨⟨(i 0).val / 10000, ht⟩, flush0_2 _, ?_⟩
  rw [mem_blk0]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, ht⟩ (1 : Fin 2) * 64 ≤ (i 1).val ∧ (i 1).val < win0_2.index ⟨(i 0).val / 10000, ht⟩ (1 : Fin 2) * 64 + 64
    rw [e5]
    omega

/-- The output array after the region. -/
theorem final0 (c : Dev nD) : (dat0 V c).arrAt 2 cfg0.N = Gcn.mm (a := 100000) (K := 128) (b := 64) (V c main_arg0) (V c main_arg4) :=
  (dat0 V c).arrAt_eq_of_cover 2 _ (fun t _ => flushed0 V c t) (cover0)

end Cert.KernelIdeal.Hand

end
-- ==== Proof.Reg1.lean ====
/-
  Region 1 of the idealized kernel program (the first layer's message scaling): what its output array holds after the region, as one function of
  the arrays the region finds on entry. Point t of the grid stages rows 6000·t … 6000·t + 5999 of each row-tiled operand
  , the body stores each row of the message block times its entry of the column block, and the write-back puts that block at the same rows of the output;
  the 550 blocks tile the 3300000 rows.
-/
import proofs.«174922_j2516850835926_2_alg».proof.Proof.Gen.KernelIdeal.Frame
import proofs.«174922_j2516850835926_2_alg».proof.Proof.Pay
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: a row-tiled window's block index is (t, 0), an untiled one's (0, 0). -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0 :=
  (by decide +kernel : ∀ t : Fin grid1.N, _)

/-- What point t writes back is block t of the function of the entry arrays. -/
theorem flushed1 (c : Dev nD) (t : Fin cfg1.N) :
    (dat1 V c).flushed 2 t = ((cfg1.win 2).blk t).view.read (Elt Ideal) (Gcn.scale (a := 3300000) (b := 64) (V c main_v37) (V c main_v38)) := by
  show (cfg1.win 2).cut (grid1.coords t) ((dat1 V c).after 2 t) = _
  rw [after1_2]
  unfold out1_2
  rw [View.canon_unit_zero hz1]
  simp only [View.ld_unit_zero (S := S6000x64) hz1, View.ld_unit_zero (S := S6000x1) hz1]
  rw [pay1_eq]
  obtain ⟨e0, e1, e2, e3, e4, e5⟩ := idx1 t
  funext j
  let A : S3300000x64.Idx → EReal := V c main_v37
  let B : S3300000x1.Idx → EReal := V c main_v38
  show A (((cfg1.win 0).blk t).view.emb j) * B (((cfg1.win 1).blk t).view.emb (ix2 (j 0) (0 : Fin 1)))
    = A (((cfg1.win 2).blk t).view.emb j) * B (ix2 ((((cfg1.win 2).blk t).view.emb j) 0) (0 : Fin 1))
  have hj0 : (j 0).val < 6000 := (j 0).isLt
  have hj1 : (j 1).val < 64 := (j 1).isLt
  have h0 : ((cfg1.win 0).blk t).view.emb j = ((cfg1.win 2).blk t).view.emb j := by
    funext a; apply Fin.ext
    match a with
    | ⟨0, _⟩ => show win1_0.index t (0 : Fin 2) * 6000 + 1 * (j 0).val = win1_2.index t (0 : Fin 2) * 6000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (j 0) (0 : Fin 1)) = ix2 ((((cfg1.win 2).blk t).view.emb j) 0) (0 : Fin 1) := by
    funext a; apply Fin.ext
    match a with
    | ⟨0, _⟩ => show win1_1.index t (0 : Fin 2) * 6000 + 1 * (j 0).val = win1_2.index t (0 : Fin 2) * 6000 + 1 * (j 0).val; omega
    | ⟨1, _⟩ => show win1_1.index t (1 : Fin 2) * 1 + 1 * 0 = 0; omega
  exact congrArg₂ (· * ·) (congrArg A h0) (congrArg B h1)

/-- An index of the output array is in point t's block iff each coordinate is in the block's range on its axis. -/
theorem mem_blk1 (t : Fin cfg1.N) (i : S3300000x64.Idx) :
    i ∈ ((cfg1.win 2).blk t).view.set ↔ ∀ a : Fin 2, win1_2.index t a * S6000x64.size a ≤ (i a).val ∧ (i a).val < win1_2.index t a * S6000x64.size a + S6000x64.size a := by
  show i ∈ ((View.whole main_v39).slice (win1_2.rect t)).set ↔ _
  rw [View.set_slice_whole, Rect.mem_set_unit]
  exact Iff.rfl

/-- Row r of the output is in the block of point r / 6000. -/
theorem cover1 (i : S3300000x64.Idx) :
    ∃ t : Fin cfg1.N, (cfg1.win 2).flush t = true ∧ i ∈ ((cfg1.win 2).blk t).view.set := by
  have hi0 : (i 0).val < 3300000 := (i 0).isLt
  have hi1 : (i 1).val < 64 := (i 1).isLt
  have hN : cfg1.N = 550 := N_1
  have ht : (i 0).val / 6000 < cfg1.N := by rw [hN]; omega
  obtain ⟨e0, e1, e2, e3, e4, e5⟩ := idx1 ⟨(i 0).val / 6000, ht⟩
  refine ⟨⟨(i 0).val / 6000, ht⟩, flush1_2 _, ?_⟩
  rw [mem_blk1]
  intro a
  match a with
  | ⟨0, _⟩ =>
    show win1_2.index ⟨(i 0).val / 6000, ht⟩ (0 : Fin 2) * 6000 ≤ (i 0).val ∧ (i 0).val < win1_2.index ⟨(i 0).val / 6000, ht⟩ (0 : Fin 2) * 6000 + 6000
    rw [e4]
    show (i 0).val / 6000 * 6000 ≤ (i 0).val ∧ (i 0).val < (i 0).val / 6000 * 6000 + 6000
    omega
  | ⟨1, _⟩ =>
    show win1_2.index ⟨(i 0).val / 6000, ht⟩ (1 : Fin 2) * 64 ≤ (i 1).val ∧ (i 1).val < win1_2.index ⟨(i 0).val / 6000, ht⟩ (1 : Fin 2) * 64 + 64
    rw [e5]
    omega

/-- The output array after the region. -/
theorem final1 (c : Dev nD) : (dat1 V c).arrAt 2 cfg1.N = Gcn.scale (a := 3300000) (b := 64) (V c main_v37) (V c main_v38) :=
  (dat1 V c).arrAt_eq_of_cover 2 _ (fun t _ => flushed1 V c t) (cover1)

end Cert.KernelIdeal.Hand

end
-- ==== Proof.Reg2.lean ====
/-
  Region 2 of the idealized kernel program (the first layer's bias and clamp): what its output array holds after the region, as one function of
  the arrays the region finds on entry. Point t of the grid stages rows 5000·t … 5000·t + 4999 of each row-tiled operand
  and the whole of each untiled one, the body stores the row block plus the bias row, clamped below at zero, and the write-back puts that block at the same rows of the output;
  the 20 blocks tile the 100000 rows.
-/
import proofs.«174922_j2516850835926_2_alg».proof.Proof.Gen.KernelIdeal.Frame
import proofs.«174922_j2516850835926_2_alg».proof.Proof.Pay
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: a row-tiled window's block index is (t, 0), an untiled one's (0, 0). -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is block t of the function of the entry arrays. -/
theorem flushed2 (c : Dev nD) (t : Fin cfg2.N) :
    (dat2 V c).flushed 2 t = ((cfg2.win 2).blk t).view.read (Elt Ideal) (Gcn.biasRelu (a := 100000) (b := 64) (V c main_v42) (V c main_v43)) := by
  show (cfg2.win 2).cut (grid2.coords t) ((dat2 V c).after 2 t) = _
  rw [after2_2]
  unfold out2_2
  rw [View.canon_unit_zero hz2]
  simp only [View.ld_unit_zero (S := S5000x64) hz2, View.ld_unit_zero (S := S1x64) hz2]
  rw [pay2_eq]
  obtain ⟨e0, e1, e2, e3, e4, e5⟩ := idx2 t
  funext j
  let A : S100000x64.Idx → EReal := V c main_v42
  let B : S1x64.Idx → EReal := V c main_v43
  show max (A (((cfg2.win 0).blk t).view.emb j) + B (((cfg2.win 1).blk t).view.emb (ix2 (0 : Fin 1) (j 1)))) (Ideal.ofBits .f32 0x00000000#32)
    = max (A (((cfg2.win 2).blk t).view.emb j) + B (ix2 (0 : Fin 1) ((((cfg2.win 2).blk t).view.emb j) 1))) (Ideal.ofBits .f32 0x00000000#32)
  have hj0 : (j 0).val < 5000 := (j 0).isLt
  have hj1 : (j 1).val < 64 := (j 1).isLt
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (ix2 (0 : Fin 1) (j 1)) = ix2 (0 : Fin 1) ((((cfg2.win 2).blk t).view.emb j) 1) := by
    funext a; apply Fin.ext
    match a with
    | ⟨0, _⟩ => show win2_1.index t (0 : Fin 2) * 1 + 1 * 0 = 0; omega
    | ⟨1, _⟩ => show win2_1.index t (1 : Fin 2) * 64 + 1 * (j 1).val = win2_2.index t (1 : Fin 2) * 64 + 1 * (j 1).val; omega
  exact congrArg (max · (Ideal.ofBits .f32 0x00000000#32)) (congrArg₂ (· + ·) (congrArg A h0) (congrArg B h1))

/-- An index of the output array is in point t's block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v44).slice (win2_2.rect t)).set ↔ _
  rw [View.set_slice_whole, Rect.mem_set_unit]
  exact Iff.rfl

/-- Row r of the output is in the block of point r / 5000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  have ht : (i 0).val / 5000 < cfg2.N := by rw [hN]; omega
  obtain ⟨e0, e1, e2, e3, e4, e5⟩ := idx2 ⟨(i 0).val / 5000, ht⟩
  refine ⟨⟨(i 0).val / 5000, ht⟩, flush2_2 _, ?_⟩
  rw [mem_blk2]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, ht⟩ (1 : Fin 2) * 64 ≤ (i 1).val ∧ (i 1).val < win2_2.index ⟨(i 0).val / 5000, ht⟩ (1 : Fin 2) * 64 + 64
    rw [e5]
    omega

/-- The output array after the region. -/
theorem final2 (c : Dev nD) : (dat2 V c).arrAt 2 cfg2.N = Gcn.biasRelu (a := 100000) (b := 64) (V c main_v42) (V c main_v43) :=
  (dat2 V c).arrAt_eq_of_cover 2 _ (fun t _ => flushed2 V c t) (cover2)

end Cert.KernelIdeal.Hand

end
-- ==== Proof.Reg3.lean ====
/-
  Region 3 of the idealized kernel program (the second layer's projection z · W2): what its output array holds after the region, as one function of
  the arrays the region finds on entry. Point t of the grid stages rows 10000·t … 10000·t + 9999 of each row-tiled operand
  and the whole of each untiled one, the body stores the product of the row block with the whole weight matrix, and the write-back puts that block at the same rows of the output;
  the 10 blocks tile the 100000 rows.
-/
import proofs.«174922_j2516850835926_2_alg».proof.Proof.Gen.KernelIdeal.Frame
import proofs.«174922_j2516850835926_2_alg».proof.Proof.Pay
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: a row-tiled window's block index is (t, 0), an untiled one's (0, 0). -/
theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point t writes back is block t of the function of the entry arrays. -/
theorem flushed3 (c : Dev nD) (t : Fin cfg3.N) :
    (dat3 V c).flushed 2 t = ((cfg3.win 2).blk t).view.read (Elt Ideal) (Gcn.mm (a := 100000) (K := 64) (b := 64) (V c main_v44) (V c main_arg6)) := by
  show (cfg3.win 2).cut (grid3.coords t) ((dat3 V c).after 2 t) = _
  rw [after3_2]
  unfold out3_2
  rw [View.canon_unit_zero hz3]
  simp only [View.ld_unit_zero (S := S10000x64) hz3, View.ld_unit_zero (S := S64x64) hz3]
  rw [pay3_eq]
  obtain ⟨e0, e1, e2, e3, e4, e5⟩ := idx3 t
  funext j
  let A : S100000x64.Idx → EReal := V c main_v44
  let B : S64x64.Idx → EReal := V c main_arg6
  show (∑ x : Fin 64, A (((cfg3.win 0).blk t).view.emb (ix2 (j 0) x)) * B (((cfg3.win 1).blk t).view.emb (ix2 x (j 1))))
    = ∑ x : Fin 64, A (ix2 ((((cfg3.win 2).blk t).view.emb j) 0) x) * B (ix2 x ((((cfg3.win 2).blk t).view.emb j) 1))
  have hj0 : (j 0).val < 10000 := (j 0).isLt
  have hj1 : (j 1).val < 64 := (j 1).isLt
  refine Finset.sum_congr rfl fun x _ => ?_
  have h0 : ((cfg3.win 0).blk t).view.emb (ix2 (j 0) x) = ix2 ((((cfg3.win 2).blk t).view.emb j) 0) x := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * x.val = x.val; omega
  have h1 : ((cfg3.win 1).blk t).view.emb (ix2 x (j 1)) = ix2 x ((((cfg3.win 2).blk t).view.emb j) 1) := by
    funext a; apply Fin.ext
    match a with
    | ⟨0, _⟩ => show win3_1.index t (0 : Fin 2) * 64 + 1 * x.val = x.val; omega
    | ⟨1, _⟩ => show win3_1.index t (1 : Fin 2) * 64 + 1 * (j 1).val = win3_2.index t (1 : Fin 2) * 64 + 1 * (j 1).val; omega
  exact congrArg₂ (· * ·) (congrArg A h0) (congrArg B h1)

/-- An index of the output array is in point t's block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v45).slice (win3_2.rect t)).set ↔ _
  rw [View.set_slice_whole, Rect.mem_set_unit]
  exact Iff.rfl

/-- Row r of the output is in the block of point r / 10000. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  have ht : (i 0).val / 10000 < cfg3.N := by rw [hN]; omega
  obtain ⟨e0, e1, e2, e3, e4, e5⟩ := idx3 ⟨(i 0).val / 10000, ht⟩
  refine ⟨⟨(i 0).val / 10000, ht⟩, flush3_2 _, ?_⟩
  rw [mem_blk3]
  intro a
  match a with
  | ⟨0, _⟩ =>
    show win3_2.index ⟨(i 0).val / 10000, ht⟩ (0 : Fin 2) * 10000 ≤ (i 0).val ∧ (i 0).val < win3_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win3_2.index ⟨(i 0).val / 10000, ht⟩ (1 : Fin 2) * 64 ≤ (i 1).val ∧ (i 1).val < win3_2.index ⟨(i 0).val / 10000, ht⟩ (1 : Fin 2) * 64 + 64
    rw [e5]
    omega

/-- The output array after the region. -/
theorem final3 (c : Dev nD) : (dat3 V c).arrAt 2 cfg3.N = Gcn.mm (a := 100000) (K := 64) (b := 64) (V c main_v44) (V c main_arg6) :=
  (dat3 V c).arrAt_eq_of_cover 2 _ (fun t _ => flushed3 V c t) (cover3)

end Cert.KernelIdeal.Hand

end
-- ==== Proof.Reg4.lean ====
/-
  Region 4 of the idealized kernel program (the second layer's message scaling): what its output array holds after the region, as one function of
  the arrays the region finds on entry. Point t of the grid stages rows 6000·t … 6000·t + 5999 of each row-tiled operand
  , the body stores each row of the message block times its entry of the column block, and the write-back puts that block at the same rows of the output;
  the 550 blocks tile the 3300000 rows.
-/
import proofs.«174922_j2516850835926_2_alg».proof.Proof.Gen.KernelIdeal.Frame
import proofs.«174922_j2516850835926_2_alg».proof.Proof.Pay
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The printed index maps over the grid: a row-tiled window's block index is (t, 0), an untiled one's (0, 0). -/
theorem idx4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0 :=
  (by decide +kernel : ∀ t : Fin grid4.N, _)

/-- What point t writes back is block t of the function of the entry arrays. -/
theorem flushed4 (c : Dev nD) (t : Fin cfg4.N) :
    (dat4 V c).flushed 2 t = ((cfg4.win 2).blk t).view.read (Elt Ideal) (Gcn.scale (a := 3300000) (b := 64) (V c main_v52) (V c main_v53)) := by
  show (cfg4.win 2).cut (grid4.coords t) ((dat4 V c).after 2 t) = _
  rw [after4_2]
  unfold out4_2
  rw [View.canon_unit_zero hz4]
  simp only [View.ld_unit_zero (S := S6000x64) hz4, View.ld_unit_zero (S := S6000x1) hz4]
  rw [pay4_eq]
  obtain ⟨e0, e1, e2, e3, e4, e5⟩ := idx4 t
  funext j
  let A : S3300000x64.Idx → EReal := V c main_v52
  let B : S3300000x1.Idx → EReal := V c main_v53
  show A (((cfg4.win 0).blk t).view.emb j) * B (((cfg4.win 1).blk t).view.emb (ix2 (j 0) (0 : Fin 1)))
    = A (((cfg4.win 2).blk t).view.emb j) * B (ix2 ((((cfg4.win 2).blk t).view.emb j) 0) (0 : Fin 1))
  have hj0 : (j 0).val < 6000 := (j 0).isLt
  have hj1 : (j 1).val < 64 := (j 1).isLt
  have h0 : ((cfg4.win 0).blk t).view.emb j = ((cfg4.win 2).blk t).view.emb j := by
    funext a; apply Fin.ext
    match a with
    | ⟨0, _⟩ => show win4_0.index t (0 : Fin 2) * 6000 + 1 * (j 0).val = win4_2.index t (0 : Fin 2) * 6000 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb (ix2 (j 0) (0 : Fin 1)) = ix2 ((((cfg4.win 2).blk t).view.emb j) 0) (0 : Fin 1) := by
    funext a; apply Fin.ext
    match a with
    | ⟨0, _⟩ => show win4_1.index t (0 : Fin 2) * 6000 + 1 * (j 0).val = win4_2.index t (0 : Fin 2) * 6000 + 1 * (j 0).val; omega
    | ⟨1, _⟩ => show win4_1.index t (1 : Fin 2) * 1 + 1 * 0 = 0; omega
  exact congrArg₂ (· * ·) (congrArg A h0) (congrArg B h1)

/-- An index of the output array is in point t's block iff each coordinate is in the block's range on its axis. -/
theorem mem_blk4 (t : Fin cfg4.N) (i : S3300000x64.Idx) :
    i ∈ ((cfg4.win 2).blk t).view.set ↔ ∀ a : Fin 2, win4_2.index t a * S6000x64.size a ≤ (i a).val ∧ (i a).val < win4_2.index t a * S6000x64.size a + S6000x64.size a := by
  show i ∈ ((View.whole main_v54).slice (win4_2.rect t)).set ↔ _
  rw [View.set_slice_whole, Rect.mem_set_unit]
  exact Iff.rfl

/-- Row r of the output is in the block of point r / 6000. -/
theorem cover4 (i : S3300000x64.Idx) :
    ∃ t : Fin cfg4.N, (cfg4.win 2).flush t = true ∧ i ∈ ((cfg4.win 2).blk t).view.set := by
  have hi0 : (i 0).val < 3300000 := (i 0).isLt
  have hi1 : (i 1).val < 64 := (i 1).isLt
  have hN : cfg4.N = 550 := N_4
  have ht : (i 0).val / 6000 < cfg4.N := by rw [hN]; omega
  obtain ⟨e0, e1, e2, e3, e4, e5⟩ := idx4 ⟨(i 0).val / 6000, ht⟩
  refine ⟨⟨(i 0).val / 6000, ht⟩, flush4_2 _, ?_⟩
  rw [mem_blk4]
  intro a
  match a with
  | ⟨0, _⟩ =>
    show win4_2.index ⟨(i 0).val / 6000, ht⟩ (0 : Fin 2) * 6000 ≤ (i 0).val ∧ (i 0).val < win4_2.index ⟨(i 0).val / 6000, ht⟩ (0 : Fin 2) * 6000 + 6000
    rw [e4]
    show (i 0).val / 6000 * 6000 ≤ (i 0).val ∧ (i 0).val < (i 0).val / 6000 * 6000 + 6000
    omega
  | ⟨1, _⟩ =>
    show win4_2.index ⟨(i 0).val / 6000, ht⟩ (1 : Fin 2) * 64 ≤ (i 1).val ∧ (i 1).val < win4_2.index ⟨(i 0).val / 6000, ht⟩ (1 : Fin 2) * 64 + 64
    rw [e5]
    omega

/-- The output array after the region. -/
theorem final4 (c : Dev nD) : (dat4 V c).arrAt 2 cfg4.N = Gcn.scale (a := 3300000) (b := 64) (V c main_v52) (V c main_v53) :=
  (dat4 V c).arrAt_eq_of_cover 2 _ (fun t _ => flushed4 V c t) (cover4)

end Cert.KernelIdeal.Hand

end
-- ==== Proof.Reg5.lean ====
/-
  Region 5 of the idealized kernel program (the second layer's bias and clamp): what its output array holds after the region, as one function of
  the arrays the region finds on entry. Point t of the grid stages rows 5000·t … 5000·t + 4999 of each row-tiled operand
  and the whole of each untiled one, the body stores the row block plus the bias row, clamped below at zero, and the write-back puts that block at the same rows of the output;
  the 20 blocks tile the 100000 rows.
-/
import proofs.«174922_j2516850835926_2_alg».proof.Proof.Gen.KernelIdeal.Frame
import proofs.«174922_j2516850835926_2_alg».proof.Proof.Pay
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- The printed index maps over the grid: a row-tiled window's block index is (t, 0), an untiled one's (0, 0). -/
theorem idx5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- What point t writes back is block t of the function of the entry arrays. -/
theorem flushed5 (c : Dev nD) (t : Fin cfg5.N) :
    (dat5 V c).flushed 2 t = ((cfg5.win 2).blk t).view.read (Elt Ideal) (Gcn.biasRelu (a := 100000) (b := 64) (V c main_v57) (V c main_v58)) := by
  show (cfg5.win 2).cut (grid5.coords t) ((dat5 V c).after 2 t) = _
  rw [after5_2]
  unfold out5_2
  rw [View.canon_unit_zero hz5]
  simp only [View.ld_unit_zero (S := S5000x64) hz5, View.ld_unit_zero (S := S1x64) hz5]
  rw [pay5_eq]
  obtain ⟨e0, e1, e2, e3, e4, e5⟩ := idx5 t
  funext j
  let A : S100000x64.Idx → EReal := V c main_v57
  let B : S1x64.Idx → EReal := V c main_v58
  show max (A (((cfg5.win 0).blk t).view.emb j) + B (((cfg5.win 1).blk t).view.emb (ix2 (0 : Fin 1) (j 1)))) (Ideal.ofBits .f32 0x00000000#32)
    = max (A (((cfg5.win 2).blk t).view.emb j) + B (ix2 (0 : Fin 1) ((((cfg5.win 2).blk t).view.emb j) 1))) (Ideal.ofBits .f32 0x00000000#32)
  have hj0 : (j 0).val < 5000 := (j 0).isLt
  have hj1 : (j 1).val < 64 := (j 1).isLt
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb (ix2 (0 : Fin 1) (j 1)) = ix2 (0 : Fin 1) ((((cfg5.win 2).blk t).view.emb j) 1) := by
    funext a; apply Fin.ext
    match a with
    | ⟨0, _⟩ => show win5_1.index t (0 : Fin 2) * 1 + 1 * 0 = 0; omega
    | ⟨1, _⟩ => show win5_1.index t (1 : Fin 2) * 64 + 1 * (j 1).val = win5_2.index t (1 : Fin 2) * 64 + 1 * (j 1).val; omega
  exact congrArg (max · (Ideal.ofBits .f32 0x00000000#32)) (congrArg₂ (· + ·) (congrArg A h0) (congrArg B h1))

/-- An index of the output array is in point t's block iff each coordinate is in the block's range on its axis. -/
theorem mem_blk5 (t : Fin cfg5.N) (i : S100000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v59).slice (win5_2.rect t)).set ↔ _
  rw [View.set_slice_whole, Rect.mem_set_unit]
  exact Iff.rfl

/-- Row r of the output is in the block of point r / 5000. -/
theorem cover5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 20 := N_5
  have ht : (i 0).val / 5000 < cfg5.N := by rw [hN]; omega
  obtain ⟨e0, e1, e2, e3, e4, e5⟩ := idx5 ⟨(i 0).val / 5000, ht⟩
  refine ⟨⟨(i 0).val / 5000, ht⟩, flush5_2 _, ?_⟩
  rw [mem_blk5]
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win5_2.index ⟨(i 0).val / 5000, ht⟩ (1 : Fin 2) * 64 ≤ (i 1).val ∧ (i 1).val < win5_2.index ⟨(i 0).val / 5000, ht⟩ (1 : Fin 2) * 64 + 64
    rw [e5]
    omega

/-- The output array after the region. -/
theorem final5 (c : Dev nD) : (dat5 V c).arrAt 2 cfg5.N = Gcn.biasRelu (a := 100000) (b := 64) (V c main_v57) (V c main_v58) :=
  (dat5 V c).arrAt_eq_of_cover 2 _ (fun t _ => flushed5 V c t) (cover5)

end Cert.KernelIdeal.Hand

end
-- ==== Proof.Reg6.lean ====
/-
  Region 6 of the idealized kernel program (the scores of the positive links): what its output array holds after the region, as one function of
  the arrays the region finds on entry. Point t of the grid stages rows 5000·t … 5000·t + 4999 of each row-tiled operand
  and the whole of each untiled one, the body stores for each row the sum over the 64 columns of the two end rows' products weighted by the weight row, plus the bias number, and the write-back puts that block at the same rows of the output;
  the 100 blocks tile the 500000 rows.
-/
import proofs.«174922_j2516850835926_2_alg».proof.Proof.Gen.KernelIdeal.Frame
import proofs.«174922_j2516850835926_2_alg».proof.Proof.Pay
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz6 : (![0, 0] : Fin 2 → Nat) = fun _ => 0 := funext fun a => by fin_cases a <;> rfl

/-- The printed index maps over the grid: a row-tiled window's block index is (t, 0), an untiled one's (0, 0). -/
theorem idx6 : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = t.val
    ∧ win6_4.index t (1 : Fin 2) = 0 :=
  (by decide +kernel : ∀ t : Fin grid6.N, _)

/-- What point t writes back is block t of the function of the entry arrays. -/
theorem flushed6 (c : Dev nD) (t : Fin cfg6.N) :
    (dat6 V c).flushed 4 t = ((cfg6.win 4).blk t).view.read (Elt Ideal) (Gcn.decode (a := 500000) (b := 64) (V c main_v74) (V c main_v81) (V c main_v82) (V c main_v83)) := by
  show (cfg6.win 4).cut (grid6.coords t) ((dat6 V c).after 4 t) = _
  rw [after6_4]
  unfold out6_4
  rw [View.canon_unit_zero hz6]
  simp only [View.ld_unit_zero (S := S5000x64) hz6, View.ld_unit_zero (S := S1x64) hz6, View.ld_unit_zero (S := S1x1) hz6]
  rw [pay6_eq]
  obtain ⟨e0, e1, e2, e3, e4, e5, e6, e7, e8, e9⟩ := idx6 t
  funext j
  let A : S500000x64.Idx → EReal := V c main_v74
  let B : S500000x64.Idx → EReal := V c main_v81
  let W : S1x64.Idx → EReal := V c main_v82
  let Bi : S1x1.Idx → EReal := V c main_v83
  show (∑ x : Fin 64, A (((cfg6.win 0).blk t).view.emb (ix2 (j 0) x)) * B (((cfg6.win 1).blk t).view.emb (ix2 (j 0) x))
        * W (((cfg6.win 2).blk t).view.emb (ix2 (0 : Fin 1) x)))
      + Bi (((cfg6.win 3).blk t).view.emb (ix2 (0 : Fin 1) (0 : Fin 1)))
    = (∑ x : Fin 64, A (ix2 ((((cfg6.win 4).blk t).view.emb j) 0) x) * B (ix2 ((((cfg6.win 4).blk t).view.emb j) 0) x)
        * W (ix2 (0 : Fin 1) x))
      + Bi (ix2 (0 : Fin 1) (0 : Fin 1))
  have hj0 : (j 0).val < 5000 := (j 0).isLt
  have h3 : ((cfg6.win 3).blk t).view.emb (ix2 (0 : Fin 1) (0 : Fin 1)) = ix2 (0 : Fin 1) (0 : Fin 1) := by
    funext a; apply Fin.ext
    match a with
    | ⟨0, _⟩ => show win6_3.index t (0 : Fin 2) * 1 + 1 * 0 = 0; omega
    | ⟨1, _⟩ => show win6_3.index t (1 : Fin 2) * 1 + 1 * 0 = 0; omega
  refine congrArg₂ (· + ·) (Finset.sum_congr rfl fun x _ => ?_) (congrArg Bi h3)
  have h0 : ((cfg6.win 0).blk t).view.emb (ix2 (j 0) x) = ix2 ((((cfg6.win 4).blk t).view.emb j) 0) x := by
    funext a; apply Fin.ext
    match a with
    | ⟨0, _⟩ => show win6_0.index t (0 : Fin 2) * 5000 + 1 * (j 0).val = win6_4.index t (0 : Fin 2) * 5000 + 1 * (j 0).val; omega
    | ⟨1, _⟩ => show win6_0.index t (1 : Fin 2) * 64 + 1 * x.val = x.val; omega
  have h1 : ((cfg6.win 1).blk t).view.emb (ix2 (j 0) x) = ix2 ((((cfg6.win 4).blk t).view.emb j) 0) x := by
    funext a; apply Fin.ext
    match a with
    | ⟨0, _⟩ => show win6_1.index t (0 : Fin 2) * 5000 + 1 * (j 0).val = win6_4.index t (0 : Fin 2) * 5000 + 1 * (j 0).val; omega
    | ⟨1, _⟩ => show win6_1.index t (1 : Fin 2) * 64 + 1 * x.val = x.val; omega
  have h2 : ((cfg6.win 2).blk t).view.emb (ix2 (0 : Fin 1) x) = ix2 (0 : Fin 1) x := by
    funext a; apply Fin.ext
    match a with
    | ⟨0, _⟩ => show win6_2.index t (0 : Fin 2) * 1 + 1 * 0 = 0; omega
    | ⟨1, _⟩ => show win6_2.index t (1 : Fin 2) * 64 + 1 * x.val = x.val; omega
  exact congrArg₂ (· * ·) (congrArg₂ (· * ·) (congrArg A h0) (congrArg B h1)) (congrArg W h2)

/-- An index of the output array is in point t's block iff each coordinate is in the block's range on its axis. -/
theorem mem_blk6 (t : Fin cfg6.N) (i : S500000x1.Idx) :
    i ∈ ((cfg6.win 4).blk t).view.set ↔ ∀ a : Fin 2, win6_4.index t a * S5000x1.size a ≤ (i a).val ∧ (i a).val < win6_4.index t a * S5000x1.size a + S5000x1.size a := by
  show i ∈ ((View.whole main_v84).slice (win6_4.rect t)).set ↔ _
  rw [View.set_slice_whole, Rect.mem_set_unit]
  exact Iff.rfl

/-- Row r of the output is in the block of point r / 5000. -/
theorem cover6 (i : S500000x1.Idx) :
    ∃ t : Fin cfg6.N, (cfg6.win 4).flush t = true ∧ i ∈ ((cfg6.win 4).blk t).view.set := by
  have hi0 : (i 0).val < 500000 := (i 0).isLt
  have hi1 : (i 1).val < 1 := (i 1).isLt
  have hN : cfg6.N = 100 := N_6
  have ht : (i 0).val / 5000 < cfg6.N := by rw [hN]; omega
  obtain ⟨e0, e1, e2, e3, e4, e5, e6, e7, e8, e9⟩ := idx6 ⟨(i 0).val / 5000, ht⟩
  refine ⟨⟨(i 0).val / 5000, ht⟩, flush6_4 _, ?_⟩
  rw [mem_blk6]
  intro a
  match a with
  | ⟨0, _⟩ =>
    show win6_4.index ⟨(i 0).val / 5000, ht⟩ (0 : Fin 2) * 5000 ≤ (i 0).val ∧ (i 0).val < win6_4.index ⟨(i 0).val / 5000, ht⟩ (0 : Fin 2) * 5000 + 5000
    rw [e8]
    show (i 0).val / 5000 * 5000 ≤ (i 0).val ∧ (i 0).val < (i 0).val / 5000 * 5000 + 5000
    omega
  | ⟨1, _⟩ =>
    show win6_4.index ⟨(i 0).val / 5000, ht⟩ (1 : Fin 2) * 1 ≤ (i 1).val ∧ (i 1).val < win6_4.index ⟨(i 0).val / 5000, ht⟩ (1 : Fin 2) * 1 + 1
    rw [e9]
    omega

/-- The output array after the region. -/
theorem final6 (c : Dev nD) : (dat6 V c).arrAt 4 cfg6.N = Gcn.decode (a := 500000) (b := 64) (V c main_v74) (V c main_v81) (V c main_v82) (V c main_v83) :=
  (dat6 V c).arrAt_eq_of_cover 4 _ (fun t _ => flushed6 V c t) (cover6)

end Cert.KernelIdeal.Hand

end
-- ==== Proof.Reg7.lean ====
/-
  Region 7 of the idealized kernel program (the scores of the negative links): what its output array holds after the region, as one function of
  the arrays the region finds on entry. Point t of the grid stages rows 5000·t … 5000·t + 4999 of each row-tiled operand
  and the whole of each untiled one, the body stores for each row the sum over the 64 columns of the two end rows' products weighted by the weight row, plus the bias number, and the write-back puts that block at the same rows of the output;
  the 100 blocks tile the 500000 rows.
-/
import proofs.«174922_j2516850835926_2_alg».proof.Proof.Gen.KernelIdeal.Frame
import proofs.«174922_j2516850835926_2_alg».proof.Proof.Pay
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz7 : (![0, 0] : Fin 2 → Nat) = fun _ => 0 := funext fun a => by fin_cases a <;> rfl

/-- The printed index maps over the grid: a row-tiled window's block index is (t, 0), an untiled one's (0, 0). -/
theorem idx7 : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = t.val
    ∧ win7_4.index t (1 : Fin 2) = 0 :=
  (by decide +kernel : ∀ t : Fin grid7.N, _)

/-- What point t writes back is block t of the function of the entry arrays. -/
theorem flushed7 (c : Dev nD) (t : Fin cfg7.N) :
    (dat7 V c).flushed 4 t = ((cfg7.win 4).blk t).view.read (Elt Ideal) (Gcn.decode (a := 500000) (b := 64) (V c main_v92) (V c main_v99) (V c main_v100) (V c main_v101)) := by
  show (cfg7.win 4).cut (grid7.coords t) ((dat7 V c).after 4 t) = _
  rw [after7_4]
  unfold out7_4
  rw [View.canon_unit_zero hz7]
  simp only [View.ld_unit_zero (S := S5000x64) hz7, View.ld_unit_zero (S := S1x64) hz7, View.ld_unit_zero (S := S1x1) hz7]
  rw [pay7_eq]
  obtain ⟨e0, e1, e2, e3, e4, e5, e6, e7, e8, e9⟩ := idx7 t
  funext j
  let A : S500000x64.Idx → EReal := V c main_v92
  let B : S500000x64.Idx → EReal := V c main_v99
  let W : S1x64.Idx → EReal := V c main_v100
  let Bi : S1x1.Idx → EReal := V c main_v101
  show (∑ x : Fin 64, A (((cfg7.win 0).blk t).view.emb (ix2 (j 0) x)) * B (((cfg7.win 1).blk t).view.emb (ix2 (j 0) x))
        * W (((cfg7.win 2).blk t).view.emb (ix2 (0 : Fin 1) x)))
      + Bi (((cfg7.win 3).blk t).view.emb (ix2 (0 : Fin 1) (0 : Fin 1)))
    = (∑ x : Fin 64, A (ix2 ((((cfg7.win 4).blk t).view.emb j) 0) x) * B (ix2 ((((cfg7.win 4).blk t).view.emb j) 0) x)
        * W (ix2 (0 : Fin 1) x))
      + Bi (ix2 (0 : Fin 1) (0 : Fin 1))
  have hj0 : (j 0).val < 5000 := (j 0).isLt
  have h3 : ((cfg7.win 3).blk t).view.emb (ix2 (0 : Fin 1) (0 : Fin 1)) = ix2 (0 : Fin 1) (0 : Fin 1) := by
    funext a; apply Fin.ext
    match a with
    | ⟨0, _⟩ => show win7_3.index t (0 : Fin 2) * 1 + 1 * 0 = 0; omega
    | ⟨1, _⟩ => show win7_3.index t (1 : Fin 2) * 1 + 1 * 0 = 0; omega
  refine congrArg₂ (· + ·) (Finset.sum_congr rfl fun x _ => ?_) (congrArg Bi h3)
  have h0 : ((cfg7.win 0).blk t).view.emb (ix2 (j 0) x) = ix2 ((((cfg7.win 4).blk t).view.emb j) 0) x := by
    funext a; apply Fin.ext
    match a with
    | ⟨0, _⟩ => show win7_0.index t (0 : Fin 2) * 5000 + 1 * (j 0).val = win7_4.index t (0 : Fin 2) * 5000 + 1 * (j 0).val; omega
    | ⟨1, _⟩ => show win7_0.index t (1 : Fin 2) * 64 + 1 * x.val = x.val; omega
  have h1 : ((cfg7.win 1).blk t).view.emb (ix2 (j 0) x) = ix2 ((((cfg7.win 4).blk t).view.emb j) 0) x := by
    funext a; apply Fin.ext
    match a with
    | ⟨0, _⟩ => show win7_1.index t (0 : Fin 2) * 5000 + 1 * (j 0).val = win7_4.index t (0 : Fin 2) * 5000 + 1 * (j 0).val; omega
    | ⟨1, _⟩ => show win7_1.index t (1 : Fin 2) * 64 + 1 * x.val = x.val; omega
  have h2 : ((cfg7.win 2).blk t).view.emb (ix2 (0 : Fin 1) x) = ix2 (0 : Fin 1) x := by
    funext a; apply Fin.ext
    match a with
    | ⟨0, _⟩ => show win7_2.index t (0 : Fin 2) * 1 + 1 * 0 = 0; omega
    | ⟨1, _⟩ => show win7_2.index t (1 : Fin 2) * 64 + 1 * x.val = x.val; omega
  exact congrArg₂ (· * ·) (congrArg₂ (· * ·) (congrArg A h0) (congrArg B h1)) (congrArg W h2)

/-- An index of the output array is in point t's block iff each coordinate is in the block's range on its axis. -/
theorem mem_blk7 (t : Fin cfg7.N) (i : S500000x1.Idx) :
    i ∈ ((cfg7.win 4).blk t).view.set ↔ ∀ a : Fin 2, win7_4.index t a * S5000x1.size a ≤ (i a).val ∧ (i a).val < win7_4.index t a * S5000x1.size a + S5000x1.size a := by
  show i ∈ ((View.whole main_v102).slice (win7_4.rect t)).set ↔ _
  rw [View.set_slice_whole, Rect.mem_set_unit]
  exact Iff.rfl

/-- Row r of the output is in the block of point r / 5000. -/
theorem cover7 (i : S500000x1.Idx) :
    ∃ t : Fin cfg7.N, (cfg7.win 4).flush t = true ∧ i ∈ ((cfg7.win 4).blk t).view.set := by
  have hi0 : (i 0).val < 500000 := (i 0).isLt
  have hi1 : (i 1).val < 1 := (i 1).isLt
  have hN : cfg7.N = 100 := N_7
  have ht : (i 0).val / 5000 < cfg7.N := by rw [hN]; omega
  obtain ⟨e0, e1, e2, e3, e4, e5, e6, e7, e8, e9⟩ := idx7 ⟨(i 0).val / 5000, ht⟩
  refine ⟨⟨(i 0).val / 5000, ht⟩, flush7_4 _, ?_⟩
  rw [mem_blk7]
  intro a
  match a with
  | ⟨0, _⟩ =>
    show win7_4.index ⟨(i 0).val / 5000, ht⟩ (0 : Fin 2) * 5000 ≤ (i 0).val ∧ (i 0).val < win7_4.index ⟨(i 0).val / 5000, ht⟩ (0 : Fin 2) * 5000 + 5000
    rw [e8]
    show (i 0).val / 5000 * 5000 ≤ (i 0).val ∧ (i 0).val < (i 0).val / 5000 * 5000 + 5000
    omega
  | ⟨1, _⟩ =>
    show win7_4.index ⟨(i 0).val / 5000, ht⟩ (1 : Fin 2) * 1 ≤ (i 1).val ∧ (i 1).val < win7_4.index ⟨(i 0).val / 5000, ht⟩ (1 : Fin 2) * 1 + 1
    rw [e9]
    omega

/-- The output array after the region. -/
theorem final7 (c : Dev nD) : (dat7 V c).arrAt 4 cfg7.N = Gcn.decode (a := 500000) (b := 64) (V c main_v92) (V c main_v99) (V c main_v100) (V c main_v101) :=
  (dat7 V c).arrAt_eq_of_cover 4 _ (fun t _ => flushed7 V c t) (cover7)

end Cert.KernelIdeal.Hand

end
-- ==== Proof.KVal.lean ====
/-
  The idealized kernel program's two results as the reference's own composition of the arguments. Region by region:
  the first projection is the host's matrix product of the features with the first weight matrix; the gathered rows
  scaled by the per-edge factor are the host's messages; their scatter-sum with the bias added and clamped is the
  host's layer; the same three steps again give the second layer; and each decoder region's column, flattened, is the
  host's link scores. Between regions the host stretches are the reference's own operations, so once a region's output
  is known to be the reference's value the next stretch's results are too.
-/
import proofs.«174922_j2516850835926_2_alg».proof.Proof.KKeep
import proofs.«174922_j2516850835926_2_alg».proof.Proof.LibGcnSteps
import proofs.«174922_j2516850835926_2_alg».proof.Proof.RefDots
import proofs.«174922_j2516850835926_2_alg».proof.Proof.Reg0
import proofs.«174922_j2516850835926_2_alg».proof.Proof.Reg1
import proofs.«174922_j2516850835926_2_alg».proof.Proof.Reg2
import proofs.«174922_j2516850835926_2_alg».proof.Proof.Reg3
import proofs.«174922_j2516850835926_2_alg».proof.Proof.Reg4
import proofs.«174922_j2516850835926_2_alg».proof.Proof.Reg5
import proofs.«174922_j2516850835926_2_alg».proof.Proof.Reg6
import proofs.«174922_j2516850835926_2_alg».proof.Proof.Reg7
import Idealize.ShloMosaic.Lib.StableHlo.Run
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.StableHlo
open Cert.ReferenceIdeal.Hand renaming ends0 → rEnds0, ends1 → rEnds1, wrapCol → rWrap, wrapCol5 → rWrap5, norm → rNorm, messages → rMsg,
  aggregate → rAgg, biasRelu → rBiasRelu, layer → rLayer, proj1 → rProj1, proj2 → rProj2, embed → rEmbed, endRows0 → rEnd0, endRows1 → rEnd1,
  scoreCol → rScoreCol, scores → rScores

variable (m : (ℓ : Loc nD τ sig) → Buf (Elt Ideal) ℓ) (ρ : Dev nD → PrngReg)

/-! ## The first layer -/

/-- Region 0 leaves the first projection. -/
theorem R0 (c : Dev nD) : W4 m ρ c (Proc.devRef .tc main_v30) = rProj1 (F := Ideal) (m ((c : Thread nD τ).loc main_arg0)) (m ((c : Thread nD τ).loc main_arg4)) := by
  refine ((W4_arr m ρ c 2).trans (final0 (V3 m ρ) c)).trans ?_
  rw [show V3 m ρ c main_arg0 = (m ((c : Thread nD τ).loc main_arg0)) from at3_main_arg0 m ρ c, show V3 m ρ c main_arg4 = (m ((c : Thread nD τ).loc main_arg4)) from at3_main_arg4 m ρ c]
  exact Gcn.mm_eq_dotGeneral Cert.ReferenceIdeal.dot_S100000x128_S128x64_S100000x64_1_0_0_1_n_n rfl rfl Cert.ReferenceIdeal.Hand.dR1_l0 Cert.ReferenceIdeal.Hand.dR1_l1 Cert.ReferenceIdeal.Hand.dR1_r0 Cert.ReferenceIdeal.Hand.dR1_r1 none _ _

/-- The rows of the projection gathered at the sources. -/
theorem e1_v37 (c : Dev nD) : V5 m ρ c main_v37 = Host.gather Cert.ReferenceIdeal.gather_S100000x64_S3300000x1_S3300000x64_1_0_n_n_0_1_164 (rProj1 (F := Ideal) (m ((c : Thread nD τ).loc main_arg0)) (m ((c : Thread nD τ).loc main_arg4))) (rWrap (F := Ideal) (rEnds0 (F := Ideal) (m ((c : Thread nD τ).loc main_arg1)))) := by
  show StableHlo.after hostOps1 (W4 m ρ c) (Proc.devRef .tc main_v37) = _
  after_results_simp
  rw [R0 m ρ c, at4_main_v3 m ρ c]
  rfl

/-- The per-edge factor as a column. -/
theorem e1_v38 (c : Dev nD) : V5 m ρ c main_v38 = shapeCast S3300000x1 (rNorm (F := Ideal) (m ((c : Thread nD τ).loc main_arg1))) shapeCasts_S3300000_S3300000x1 := by
  show StableHlo.after hostOps1 (W4 m ρ c) (Proc.devRef .tc main_v38) = _
  after_results_simp
  rw [at4_main_v29 m ρ c]
  rfl

/-- Region 1 leaves the messages: the gathered rows scaled by the per-edge factor. -/
theorem R1 (c : Dev nD) : W6 m ρ c (Proc.devRef .tc main_v39) = rMsg (F := Ideal) (rProj1 (F := Ideal) (m ((c : Thread nD τ).loc main_arg0)) (m ((c : Thread nD τ).loc main_arg4))) (m ((c : Thread nD τ).loc main_arg1)) := by
  refine ((W6_arr m ρ c 2).trans (final1 (V5 m ρ) c)).trans ?_
  rw [e1_v37 m ρ c, e1_v38 m ρ c]
  exact (Gcn.scale_eq_host (a := 3300000) (b := 64) _ (rNorm (F := Ideal) (m ((c : Thread nD τ).loc main_arg1))) _ Cert.ReferenceIdeal.Gen.bcast_S3300000_S3300000x1_0 Cert.ReferenceIdeal.Gen.bcast_S3300000x1_S3300000x64_0_1).trans rfl

/-- The messages scatter-summed at the targets. -/
theorem e2_v42 (c : Dev nD) : V7 m ρ c main_v42 = rAgg (F := Ideal) (rMsg (F := Ideal) (rProj1 (F := Ideal) (m ((c : Thread nD τ).loc main_arg0)) (m ((c : Thread nD τ).loc main_arg4))) (m ((c : Thread nD τ).loc main_arg1))) (m ((c : Thread nD τ).loc main_arg1)) := by
  show StableHlo.after hostOps2 (W6 m ρ c) (Proc.devRef .tc main_v42) = _
  after_results_simp
  rw [R1 m ρ c, at6_main_v6 m ρ c]
  rfl

/-- The first bias as one row. -/
theorem e2_v43 (c : Dev nD) : V7 m ρ c main_v43 = shapeCast S1x64 (m ((c : Thread nD τ).loc main_arg5)) shapeCasts_S64_S1x64 := by
  show StableHlo.after hostOps2 (W6 m ρ c) (Proc.devRef .tc main_v43) = _
  after_results_simp
  rw [at6_main_arg5 m ρ c]
  rfl

/-- Region 2 leaves the first layer's embeddings. -/
theorem R2 (c : Dev nD) : W8 m ρ c (Proc.devRef .tc main_v44) = rLayer (F := Ideal) (rProj1 (F := Ideal) (m ((c : Thread nD τ).loc main_arg0)) (m ((c : Thread nD τ).loc main_arg4))) (m ((c : Thread nD τ).loc main_arg5)) (m ((c : Thread nD τ).loc main_arg1)) := by
  refine ((W8_arr m ρ c 2).trans (final2 (V7 m ρ) c)).trans ?_
  rw [e2_v42 m ρ c, e2_v43 m ρ c]
  exact (Gcn.biasRelu_eq_host (a := 100000) (b := 64) _ (m ((c : Thread nD τ).loc main_arg5)) _ Cert.ReferenceIdeal.Gen.bcast_S64_S1x64_1 Cert.ReferenceIdeal.Gen.bcast_S1x64_S100000x64_0_1 Cert.ReferenceIdeal.Gen.bcast_S_S100000x64).trans rfl

/-! ## The second layer -/

/-- Region 3 leaves the second projection. -/
theorem R3 (c : Dev nD) : W9 m ρ c (Proc.devRef .tc main_v45) = rProj2 (F := Ideal) (rLayer (F := Ideal) (rProj1 (F := Ideal) (m ((c : Thread nD τ).loc main_arg0)) (m ((c : Thread nD τ).loc main_arg4))) (m ((c : Thread nD τ).loc main_arg5)) (m ((c : Thread nD τ).loc main_arg1))) (m ((c : Thread nD τ).loc main_arg6)) := by
  refine ((W9_arr m ρ c 2).trans (final3 (V8 m ρ) c)).trans ?_
  rw [show V8 m ρ c main_v44 = (rLayer (F := Ideal) (rProj1 (F := Ideal) (m ((c : Thread nD τ).loc main_arg0)) (m ((c : Thread nD τ).loc main_arg4))) (m ((c : Thread nD τ).loc main_arg5)) (m ((c : Thread nD τ).loc main_arg1))) from R2 m ρ c, show V8 m ρ c main_arg6 = (m ((c : Thread nD τ).loc main_arg6)) from at8_main_arg6 m ρ c]
  exact Gcn.mm_eq_dotGeneral Cert.ReferenceIdeal.dot_S100000x64_S64x64_S100000x64_1_0_0_1_n_n rfl rfl Cert.ReferenceIdeal.Hand.dR2_l0 Cert.ReferenceIdeal.Hand.dR2_l1 Cert.ReferenceIdeal.Hand.dR2_r0 Cert.ReferenceIdeal.Hand.dR2_r1 none _ _

/-- The rows of the projection gathered at the sources. -/
theorem e4_v52 (c : Dev nD) : V10 m ρ c main_v52 = Host.gather Cert.ReferenceIdeal.gather_S100000x64_S3300000x1_S3300000x64_1_0_n_n_0_1_164 (rProj2 (F := Ideal) (rLayer (F := Ideal) (rProj1 (F := Ideal) (m ((c : Thread nD τ).loc main_arg0)) (m ((c : Thread nD τ).loc main_arg4))) (m ((c : Thread nD τ).loc main_arg5)) (m ((c : Thread nD τ).loc main_arg1))) (m ((c : Thread nD τ).loc main_arg6))) (rWrap (F := Ideal) (rEnds0 (F := Ideal) (m ((c : Thread nD τ).loc main_arg1)))) := by
  show StableHlo.after hostOps4 (W9 m ρ c) (Proc.devRef .tc main_v52) = _
  after_results_simp
  rw [R3 m ρ c, at9_main_v3 m ρ c]
  rfl

/-- The per-edge factor as a column. -/
theorem e4_v53 (c : Dev nD) : V10 m ρ c main_v53 = shapeCast S3300000x1 (rNorm (F := Ideal) (m ((c : Thread nD τ).loc main_arg1))) shapeCasts_S3300000_S3300000x1 := by
  show StableHlo.after hostOps4 (W9 m ρ c) (Proc.devRef .tc main_v53) = _
  after_results_simp
  rw [at9_main_v29 m ρ c]
  rfl

/-- Region 4 leaves the messages: the gathered rows scaled by the per-edge factor. -/
theorem R4 (c : Dev nD) : W11 m ρ c (Proc.devRef .tc main_v54) = rMsg (F := Ideal) (rProj2 (F := Ideal) (rLayer (F := Ideal) (rProj1 (F := Ideal) (m ((c : Thread nD τ).loc main_arg0)) (m ((c : Thread nD τ).loc main_arg4))) (m ((c : Thread nD τ).loc main_arg5)) (m ((c : Thread nD τ).loc main_arg1))) (m ((c : Thread nD τ).loc main_arg6))) (m ((c : Thread nD τ).loc main_arg1)) := by
  refine ((W11_arr m ρ c 2).trans (final4 (V10 m ρ) c)).trans ?_
  rw [e4_v52 m ρ c, e4_v53 m ρ c]
  exact (Gcn.scale_eq_host (a := 3300000) (b := 64) _ (rNorm (F := Ideal) (m ((c : Thread nD τ).loc main_arg1))) _ Cert.ReferenceIdeal.Gen.bcast_S3300000_S3300000x1_0 Cert.ReferenceIdeal.Gen.bcast_S3300000x1_S3300000x64_0_1).trans rfl

/-- The messages scatter-summed at the targets. -/
theorem e5_v57 (c : Dev nD) : V12 m ρ c main_v57 = rAgg (F := Ideal) (rMsg (F := Ideal) (rProj2 (F := Ideal) (rLayer (F := Ideal) (rProj1 (F := Ideal) (m ((c : Thread nD τ).loc main_arg0)) (m ((c : Thread nD τ).loc main_arg4))) (m ((c : Thread nD τ).loc main_arg5)) (m ((c : Thread nD τ).loc main_arg1))) (m ((c : Thread nD τ).loc main_arg6))) (m ((c : Thread nD τ).loc main_arg1))) (m ((c : Thread nD τ).loc main_arg1)) := by
  show StableHlo.after hostOps5 (W11 m ρ c) (Proc.devRef .tc main_v57) = _
  after_results_simp
  rw [R4 m ρ c, at11_main_v6 m ρ c]
  rfl

/-- The second bias as one row. -/
theorem e5_v58 (c : Dev nD) : V12 m ρ c main_v58 = shapeCast S1x64 (m ((c : Thread nD τ).loc main_arg7)) shapeCasts_S64_S1x64 := by
  show StableHlo.after hostOps5 (W11 m ρ c) (Proc.devRef .tc main_v58) = _
  after_results_simp
  rw [at11_main_arg7 m ρ c]
  rfl

/-- Region 5 leaves the node embeddings after both layers. -/
theorem R5 (c : Dev nD) : W13 m ρ c (Proc.devRef .tc main_v59) = rEmbed (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  refine ((W13_arr m ρ c 2).trans (final5 (V12 m ρ) c)).trans ?_
  rw [e5_v57 m ρ c, e5_v58 m ρ c]
  exact (Gcn.biasRelu_eq_host (a := 100000) (b := 64) _ (m ((c : Thread nD τ).loc main_arg7)) _ Cert.ReferenceIdeal.Gen.bcast_S64_S1x64_1 Cert.ReferenceIdeal.Gen.bcast_S1x64_S100000x64_0_1 Cert.ReferenceIdeal.Gen.bcast_S_S100000x64).trans rfl

/-! ## The positive links -/

/-- The embeddings of the links' first ends. -/
theorem e6_v74 (c : Dev nD) : V14 m ρ c main_v74 = rEnd0 (F := Ideal) (rEmbed (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg2)) := by
  show StableHlo.after hostOps6 (W13 m ρ c) (Proc.devRef .tc main_v74) = _
  after_results_simp
  rw [R5 m ρ c, at13_main_arg2 m ρ c]
  rfl

/-- The embeddings of the links' second ends. -/
theorem e6_v81 (c : Dev nD) : V14 m ρ c main_v81 = rEnd1 (F := Ideal) (rEmbed (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg2)) := by
  show StableHlo.after hostOps6 (W13 m ρ c) (Proc.devRef .tc main_v81) = _
  after_results_simp
  rw [R5 m ρ c, at13_main_arg2 m ρ c]
  rfl

/-- The weight column as one row. -/
theorem e6_v82 (c : Dev nD) : V14 m ρ c main_v82 = shapeCast S1x64 (m ((c : Thread nD τ).loc main_arg8)) shapeCasts_S64x1_S1x64 := by
  show StableHlo.after hostOps6 (W13 m ρ c) (Proc.devRef .tc main_v82) = _
  after_results_simp
  rw [at13_main_arg8 m ρ c]
  rfl

/-- The bias number as a one-by-one matrix. -/
theorem e6_v83 (c : Dev nD) : V14 m ρ c main_v83 = shapeCast S1x1 (m ((c : Thread nD τ).loc main_arg9)) shapeCasts_S1_S1x1 := by
  show StableHlo.after hostOps6 (W13 m ρ c) (Proc.devRef .tc main_v83) = _
  after_results_simp
  rw [at13_main_arg9 m ρ c]
  rfl

/-- Region 6 leaves the link scores as a column. -/
theorem R6 (c : Dev nD) : W15 m ρ c (Proc.devRef .tc main_v84) = rScoreCol (F := Ideal) (rEnd0 (F := Ideal) (rEmbed (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg2))) (rEnd1 (F := Ideal) (rEmbed (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg2))) (m ((c : Thread nD τ).loc main_arg8)) (m ((c : Thread nD τ).loc main_arg9)) := by
  refine ((W15_arr m ρ c 4).trans (final6 (V14 m ρ) c)).trans ?_
  rw [e6_v74 m ρ c, e6_v81 m ρ c, e6_v82 m ρ c, e6_v83 m ρ c]
  exact (Gcn.decode_eq_host (a := 500000) (b := 64) Cert.ReferenceIdeal.dot_S500000x64_S64x1_S500000x1_1_0_0_1_n_n rfl rfl Cert.ReferenceIdeal.Hand.dR3_l0 Cert.ReferenceIdeal.Hand.dR3_l1 Cert.ReferenceIdeal.Hand.dR3_r0 Cert.ReferenceIdeal.Hand.dR3_r1 none _ _ (m ((c : Thread nD τ).loc main_arg8)) (m ((c : Thread nD τ).loc main_arg9)) _ _ Cert.ReferenceIdeal.Gen.bcast_S1_S1x1_1 Cert.ReferenceIdeal.Gen.bcast_S1x1_S500000x1_0_1).trans rfl

/-! ## The negative links -/

/-- Region 6 writes only its score column: the embeddings stay. -/
theorem at15_v59 (c : Dev nD) : W15 m ρ c (Proc.devRef .tc main_v59) = rEmbed (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) :=
  ((W15_of_ne m ρ c main_v59 (by decide)).trans (by
    show StableHlo.after hostOps6 (W13 m ρ c) (Proc.devRef .tc main_v59) = W13 m ρ c (Proc.devRef .tc main_v59)
    after_results_simp)).trans (R5 m ρ c)
/-- The negative link list's rows, cut out before region 6, stay through it. -/
theorem at15_v65 (c : Dev nD) : W15 m ρ c (Proc.devRef .tc main_v65) = Cert.ReferenceIdeal.Hand.linkRow0 (F := Ideal) (m ((c : Thread nD τ).loc main_arg3)) := by
  refine (W15_of_ne m ρ c main_v65 (by decide)).trans ?_
  show StableHlo.after hostOps6 (W13 m ρ c) (Proc.devRef .tc main_v65) = _
  after_results_simp
  rw [at13_main_arg3 m ρ c]
  rfl
theorem at15_v67 (c : Dev nD) : W15 m ρ c (Proc.devRef .tc main_v67) = Cert.ReferenceIdeal.Hand.linkRow1 (F := Ideal) (m ((c : Thread nD τ).loc main_arg3)) := by
  refine (W15_of_ne m ρ c main_v67 (by decide)).trans ?_
  show StableHlo.after hostOps6 (W13 m ρ c) (Proc.devRef .tc main_v67) = _
  after_results_simp
  rw [at13_main_arg3 m ρ c]
  rfl
theorem at15_main_arg8 (c : Dev nD) : W15 m ρ c (Proc.devRef .tc main_arg8) = m ((c : Thread nD τ).loc main_arg8) :=
  ((W15_of_ne m ρ c main_arg8 (by decide)).trans (by
    show StableHlo.after hostOps6 (W13 m ρ c) (Proc.devRef .tc main_arg8) = W13 m ρ c (Proc.devRef .tc main_arg8)
    after_results_simp)).trans (at13_main_arg8 m ρ c)
theorem at15_main_arg9 (c : Dev nD) : W15 m ρ c (Proc.devRef .tc main_arg9) = m ((c : Thread nD τ).loc main_arg9) :=
  ((W15_of_ne m ρ c main_arg9 (by decide)).trans (by
    show StableHlo.after hostOps6 (W13 m ρ c) (Proc.devRef .tc main_arg9) = W13 m ρ c (Proc.devRef .tc main_arg9)
    after_results_simp)).trans (at13_main_arg9 m ρ c)

/-- The embeddings of the links' first ends. -/
theorem e7_v92 (c : Dev nD) : V16 m ρ c main_v92 = rEnd0 (F := Ideal) (rEmbed (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg3)) := by
  show StableHlo.after hostOps7 (W15 m ρ c) (Proc.devRef .tc main_v92) = _
  after_results_simp
  rw [at15_v59 m ρ c, at15_v65 m ρ c]
  rfl

/-- The embeddings of the links' second ends. -/
theorem e7_v99 (c : Dev nD) : V16 m ρ c main_v99 = rEnd1 (F := Ideal) (rEmbed (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg3)) := by
  show StableHlo.after hostOps7 (W15 m ρ c) (Proc.devRef .tc main_v99) = _
  after_results_simp
  rw [at15_v59 m ρ c, at15_v67 m ρ c]
  rfl

/-- The weight column as one row. -/
theorem e7_v100 (c : Dev nD) : V16 m ρ c main_v100 = shapeCast S1x64 (m ((c : Thread nD τ).loc main_arg8)) shapeCasts_S64x1_S1x64 := by
  show StableHlo.after hostOps7 (W15 m ρ c) (Proc.devRef .tc main_v100) = _
  after_results_simp
  rw [at15_main_arg8 m ρ c]
  rfl

/-- The bias number as a one-by-one matrix. -/
theorem e7_v101 (c : Dev nD) : V16 m ρ c main_v101 = shapeCast S1x1 (m ((c : Thread nD τ).loc main_arg9)) shapeCasts_S1_S1x1 := by
  show StableHlo.after hostOps7 (W15 m ρ c) (Proc.devRef .tc main_v101) = _
  after_results_simp
  rw [at15_main_arg9 m ρ c]
  rfl

/-- Region 7 leaves the link scores as a column. -/
theorem R7 (c : Dev nD) : W17 m ρ c (Proc.devRef .tc main_v102) = rScoreCol (F := Ideal) (rEnd0 (F := Ideal) (rEmbed (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg3))) (rEnd1 (F := Ideal) (rEmbed (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg3))) (m ((c : Thread nD τ).loc main_arg8)) (m ((c : Thread nD τ).loc main_arg9)) := by
  refine ((W17_arr m ρ c 4).trans (final7 (V16 m ρ) c)).trans ?_
  rw [e7_v92 m ρ c, e7_v99 m ρ c, e7_v100 m ρ c, e7_v101 m ρ c]
  exact (Gcn.decode_eq_host (a := 500000) (b := 64) Cert.ReferenceIdeal.dot_S500000x64_S64x1_S500000x1_1_0_0_1_n_n rfl rfl Cert.ReferenceIdeal.Hand.dR3_l0 Cert.ReferenceIdeal.Hand.dR3_l1 Cert.ReferenceIdeal.Hand.dR3_r0 Cert.ReferenceIdeal.Hand.dR3_r1 none _ _ (m ((c : Thread nD τ).loc main_arg8)) (m ((c : Thread nD τ).loc main_arg9)) _ _ Cert.ReferenceIdeal.Gen.bcast_S1_S1x1_1 Cert.ReferenceIdeal.Gen.bcast_S1x1_S500000x1_0_1).trans rfl

/-! ## The two results at the last boundary -/

/-- The first result: the positive links' scores, flattened after region 6 and written by nothing afterwards. -/
theorem out0 (c : Dev nD) : W18 m ρ c (Proc.devRef .tc main_v85) = rScores (F := Ideal) (rEmbed (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg2)) (m ((c : Thread nD τ).loc main_arg8)) (m ((c : Thread nD τ).loc main_arg9)) := by
  show StableHlo.after hostOps8 (W17 m ρ c) (Proc.devRef .tc main_v85) = _
  after_results_simp
  rw [W17_of_ne m ρ c main_v85 (by decide)]
  show StableHlo.after hostOps7 (W15 m ρ c) (Proc.devRef .tc main_v85) = _
  after_results_simp
  rw [R6 m ρ c]
  rfl

/-- The second result: the negative links' scores, flattened after region 7. -/
theorem out1 (c : Dev nD) : W18 m ρ c (Proc.devRef .tc main_v103) = rScores (F := Ideal) (rEmbed (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg3)) (m ((c : Thread nD τ).loc main_arg8)) (m ((c : Thread nD τ).loc main_arg9)) := by
  show StableHlo.after hostOps8 (W17 m ρ c) (Proc.devRef .tc main_v103) = _
  after_results_simp
  rw [R7 m ρ c]
  rfl

end Cert.KernelIdeal.Hand

end
-- ==== Proof.RefRun.lean ====
/-
  The reference program is a straight line of 182 host operations. Its run: every weakly fair execution terminates
  without a fault, each result buffer ends at the operations' composed function of the arguments' launch contents,
  and the arguments are unchanged. The two results are stated through the named steps of the graph convolution and the link decoder; reading the
  buffers back through the line of operations gives exactly those compositions.
-/
import proofs.«174922_j2516850835926_2_alg».proof.Proof.Gen.ReferenceIdeal
import proofs.«174922_j2516850835926_2_alg».proof.Proof.RefSpec
import Idealize.ShloMosaic.Lib.StableHlo.Run
import proofs.«174922_j2516850835926_2_alg».proof.Proof.LibTRef

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Two index vectors joined end to end: the edge list's row followed by the self-loops. -/
def cat2 (a : (⟨S3200000, .i32⟩ : BufTy).Contents (Elt F)) (b : (⟨S100000, .i32⟩ : BufTy).Contents (Elt F)) :
    (⟨S3300000, .i32⟩ : BufTy).Contents (Elt F) :=
  concatenate S3300000 0 [⟨S3200000, a⟩, ⟨S100000, b⟩] concatenates_S3200000_S100000_S3300000_d0

/-- The reference program's 182 host operations, in order; an outlined function's operations stand in its call's place. -/
abbrev ops : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 (cat2 (F := F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 (cat2 (F := F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)),
    binary main_arg0 main_arg4 main_v30 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x64 ![0, 1] bcast_S3300000x1_S3300000x64_0_1 : (⟨S3300000x1, .f32⟩ : BufTy).Contents (Elt F) → (⟨S3300000x64, .f32⟩ : BufTy).Contents (Elt F)),
    binary main_v37 main_v39 main_v40 (mulf : (⟨S3300000x64, .f32⟩ : BufTy).Contents (Elt F) → (⟨S3300000x64, .f32⟩ : BufTy).Contents (Elt F) → (⟨S3300000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg5 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf,
    nullary main_v48 (iotaInDim S100000 32 0),
    unary main_arg1 main_v49 ((extractStridedSlice S1x3200000 ![0, 0] · slices_S2x3200000_S1x3200000_0_0) : (⟨S2x3200000, .i32⟩ : BufTy).Contents (Elt F) → (⟨S1x3200000, .i32⟩ : BufTy).Contents (Elt F)),
    reshape main_v49 main_v50 rfl shapeCasts_S1x3200000_S3200000,
    binary main_v50 main_v48 main_v51 (cat2 (F := F)),
    unary main_arg1 main_v52 ((extractStridedSlice S1x3200000 ![1, 0] · slices_S2x3200000_S1x3200000_1_0) : (⟨S2x3200000, .i32⟩ : BufTy).Contents (Elt F) → (⟨S1x3200000, .i32⟩ : BufTy).Contents (Elt F)),
    reshape main_v52 main_v53 rfl shapeCasts_S1x3200000_S3200000,
    binary main_v53 main_v48 main_v54 (cat2 (F := F)),
    nullary main_cst_9 (constant S_ .f32 0x3F800000#32),
    unary main_cst_9 main_v55 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v56 (broadcastInDim S100000 ![] bcast_S_S100000 : (⟨S_, .f32⟩ : BufTy).Contents (Elt F) → (⟨S100000, .f32⟩ : BufTy).Contents (Elt F)),
    unary main_v54 main_v57 (broadcastInDim S3300000x1 ![0] bcast_S3300000_S3300000x1_0 : (⟨S3300000, .i32⟩ : BufTy).Contents (Elt F) → (⟨S3300000x1, .i32⟩ : BufTy).Contents (Elt F)),
    ternary main_v56 main_v57 main_v55 main_v58 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v59 (broadcastInDim S100000 ![] bcast_S_S100000 : (⟨S_, .f32⟩ : BufTy).Contents (Elt F) → (⟨S100000, .f32⟩ : BufTy).Contents (Elt F)),
    binary main_v58 main_v59 main_v60 (cmpf .ogt : (⟨S100000, .f32⟩ : BufTy).Contents (Elt F) → (⟨S100000, .f32⟩ : BufTy).Contents (Elt F) → (⟨S100000, .i1⟩ : BufTy).Contents (Elt F)),
    unary main_v58 main_v61 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v60) (TRef.of (T := ⟨S100000, .f32⟩) main_v61) (TRef.of (T := ⟨S100000, .f32⟩) main_call2_v1) (TRef.of (T := ⟨S100000, .f32⟩) main_v62) select,
    nullary main_c_13 (constantI S_ 32 0#32),
    unary main_c_13 main_v63 (broadcastInDim S3300000 ![] bcast_S_S3300000 : (⟨S_, .i32⟩ : BufTy).Contents (Elt F) → (⟨S3300000, .i32⟩ : BufTy).Contents (Elt F)),
    binary main_v51 main_v63 main_v64 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v65 (broadcastInDim S3300000 ![] bcast_S_S3300000 : (⟨S_, .i32⟩ : BufTy).Contents (Elt F) → (⟨S3300000, .i32⟩ : BufTy).Contents (Elt F)),
    binary main_v51 main_v65 main_v66 (addi : (⟨S3300000, .i32⟩ : BufTy).Contents (Elt F) → (⟨S3300000, .i32⟩ : BufTy).Contents (Elt F) → (⟨S3300000, .i32⟩ : BufTy).Contents (Elt F)),
    ternary main_v64 main_v66 main_v51 main_v67 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v67 main_v68 (broadcastInDim S3300000x1 ![0] bcast_S3300000_S3300000x1_0 : (⟨S3300000, .i32⟩ : BufTy).Contents (Elt F) → (⟨S3300000x1, .i32⟩ : BufTy).Contents (Elt F)),
    binary main_v62 main_v68 main_v69 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v70 (broadcastInDim S3300000 ![] bcast_S_S3300000 : (⟨S_, .i32⟩ : BufTy).Contents (Elt F) → (⟨S3300000, .i32⟩ : BufTy).Contents (Elt F)),
    binary main_v54 main_v70 main_v71 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v72 (broadcastInDim S3300000 ![] bcast_S_S3300000 : (⟨S_, .i32⟩ : BufTy).Contents (Elt F) → (⟨S3300000, .i32⟩ : BufTy).Contents (Elt F)),
    binary main_v54 main_v72 main_v73 (addi : (⟨S3300000, .i32⟩ : BufTy).Contents (Elt F) → (⟨S3300000, .i32⟩ : BufTy).Contents (Elt F) → (⟨S3300000, .i32⟩ : BufTy).Contents (Elt F)),
    ternary main_v71 main_v73 main_v54 main_v74 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v74 main_v75 (broadcastInDim S3300000x1 ![0] bcast_S3300000_S3300000x1_0 : (⟨S3300000, .i32⟩ : BufTy).Contents (Elt F) → (⟨S3300000x1, .i32⟩ : BufTy).Contents (Elt F)),
    binary main_v62 main_v75 main_v76 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v69 main_v76 main_v77 (mulf : (⟨S3300000, .f32⟩ : BufTy).Contents (Elt F) → (⟨S3300000, .f32⟩ : BufTy).Contents (Elt F) → (⟨S3300000, .f32⟩ : BufTy).Contents (Elt F)),
    binary main_v47 main_arg6 main_v78 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_17 (constantI S_ 32 0#32),
    unary main_c_17 main_v79 (broadcastInDim S3300000 ![] bcast_S_S3300000 : (⟨S_, .i32⟩ : BufTy).Contents (Elt F) → (⟨S3300000, .i32⟩ : BufTy).Contents (Elt F)),
    binary main_v51 main_v79 main_v80 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v81 (broadcastInDim S3300000 ![] bcast_S_S3300000 : (⟨S_, .i32⟩ : BufTy).Contents (Elt F) → (⟨S3300000, .i32⟩ : BufTy).Contents (Elt F)),
    binary main_v51 main_v81 main_v82 (addi : (⟨S3300000, .i32⟩ : BufTy).Contents (Elt F) → (⟨S3300000, .i32⟩ : BufTy).Contents (Elt F) → (⟨S3300000, .i32⟩ : BufTy).Contents (Elt F)),
    ternary main_v80 main_v82 main_v51 main_v83 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v83 main_v84 (broadcastInDim S3300000x1 ![0] bcast_S3300000_S3300000x1_0 : (⟨S3300000, .i32⟩ : BufTy).Contents (Elt F) → (⟨S3300000x1, .i32⟩ : BufTy).Contents (Elt F)),
    binary main_v78 main_v84 main_v85 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v77 main_v86 (broadcastInDim S3300000x1 ![0] bcast_S3300000_S3300000x1_0 : (⟨S3300000, .f32⟩ : BufTy).Contents (Elt F) → (⟨S3300000x1, .f32⟩ : BufTy).Contents (Elt F)),
    unary main_v86 main_v87 (broadcastInDim S3300000x64 ![0, 1] bcast_S3300000x1_S3300000x64_0_1 : (⟨S3300000x1, .f32⟩ : BufTy).Contents (Elt F) → (⟨S3300000x64, .f32⟩ : BufTy).Contents (Elt F)),
    binary main_v85 main_v87 main_v88 (mulf : (⟨S3300000x64, .f32⟩ : BufTy).Contents (Elt F) → (⟨S3300000x64, .f32⟩ : BufTy).Contents (Elt F) → (⟨S3300000x64, .f32⟩ : BufTy).Contents (Elt F)),
    nullary main_cst_19 (constant S_ .f32 0x00000000#32),
    unary main_cst_19 main_v89 (broadcastInDim S100000x64 ![] bcast_S_S100000x64 : (⟨S_, .f32⟩ : BufTy).Contents (Elt F) → (⟨S100000x64, .f32⟩ : BufTy).Contents (Elt F)),
    unary main_v54 main_v90 (broadcastInDim S3300000x1 ![0] bcast_S3300000_S3300000x1_0 : (⟨S3300000, .i32⟩ : BufTy).Contents (Elt F) → (⟨S3300000x1, .i32⟩ : BufTy).Contents (Elt F)),
    ternary main_v89 main_v90 main_v88 main_v91 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg7 main_v92 (broadcastInDim S1x64 ![1] bcast_S64_S1x64_1 : (⟨S64, .f32⟩ : BufTy).Contents (Elt F) → (⟨S1x64, .f32⟩ : BufTy).Contents (Elt F)),
    unary main_v92 main_v93 (broadcastInDim S100000x64 ![0, 1] bcast_S1x64_S100000x64_0_1 : (⟨S1x64, .f32⟩ : BufTy).Contents (Elt F) → (⟨S100000x64, .f32⟩ : BufTy).Contents (Elt F)),
    binary main_v91 main_v93 main_v94 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v94) (TRef.of (T := ⟨S100000x64, .f32⟩) main_call3_v0) (TRef.of (T := ⟨S100000x64, .f32⟩) main_v95) maximumf,
    unary main_arg2 main_v96 ((extractStridedSlice S1x500000 ![0, 0] · slices_S2x500000_S1x500000_0_0) : (⟨S2x500000, .i32⟩ : BufTy).Contents (Elt F) → (⟨S1x500000, .i32⟩ : BufTy).Contents (Elt F)),
    reshape main_v96 main_v97 rfl shapeCasts_S1x500000_S500000,
    unary main_arg2 main_v98 ((extractStridedSlice S1x500000 ![1, 0] · slices_S2x500000_S1x500000_1_0) : (⟨S2x500000, .i32⟩ : BufTy).Contents (Elt F) → (⟨S1x500000, .i32⟩ : BufTy).Contents (Elt F)),
    reshape main_v98 main_v99 rfl shapeCasts_S1x500000_S500000,
    nullary main_c_20 (constantI S_ 32 0#32),
    unary main_c_20 main_v100 (broadcastInDim S500000 ![] bcast_S_S500000 : (⟨S_, .i32⟩ : BufTy).Contents (Elt F) → (⟨S500000, .i32⟩ : BufTy).Contents (Elt F)),
    binary main_v97 main_v100 main_v101 (cmpi .slt : (⟨S500000, .i32⟩ : BufTy).Contents (Elt F) → (⟨S500000, .i32⟩ : BufTy).Contents (Elt F) → (⟨S500000, .i1⟩ : BufTy).Contents (Elt F)),
    nullary main_c_21 (constantI S_ 32 100000#32),
    unary main_c_21 main_v102 (broadcastInDim S500000 ![] bcast_S_S500000 : (⟨S_, .i32⟩ : BufTy).Contents (Elt F) → (⟨S500000, .i32⟩ : BufTy).Contents (Elt F)),
    binary main_v97 main_v102 main_v103 (addi : (⟨S500000, .i32⟩ : BufTy).Contents (Elt F) → (⟨S500000, .i32⟩ : BufTy).Contents (Elt F) → (⟨S500000, .i32⟩ : BufTy).Contents (Elt F)),
    ternary main_v101 main_v103 main_v97 main_v104 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v104 main_v105 (broadcastInDim S500000x1 ![0] bcast_S500000_S500000x1_0 : (⟨S500000, .i32⟩ : BufTy).Contents (Elt F) → (⟨S500000x1, .i32⟩ : BufTy).Contents (Elt F)),
    binary main_v95 main_v105 main_v106 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    nullary main_c_22 (constantI S_ 32 0#32),
    unary main_c_22 main_v107 (broadcastInDim S500000 ![] bcast_S_S500000 : (⟨S_, .i32⟩ : BufTy).Contents (Elt F) → (⟨S500000, .i32⟩ : BufTy).Contents (Elt F)),
    binary main_v99 main_v107 main_v108 (cmpi .slt : (⟨S500000, .i32⟩ : BufTy).Contents (Elt F) → (⟨S500000, .i32⟩ : BufTy).Contents (Elt F) → (⟨S500000, .i1⟩ : BufTy).Contents (Elt F)),
    nullary main_c_23 (constantI S_ 32 100000#32),
    unary main_c_23 main_v109 (broadcastInDim S500000 ![] bcast_S_S500000 : (⟨S_, .i32⟩ : BufTy).Contents (Elt F) → (⟨S500000, .i32⟩ : BufTy).Contents (Elt F)),
    binary main_v99 main_v109 main_v110 (addi : (⟨S500000, .i32⟩ : BufTy).Contents (Elt F) → (⟨S500000, .i32⟩ : BufTy).Contents (Elt F) → (⟨S500000, .i32⟩ : BufTy).Contents (Elt F)),
    ternary main_v108 main_v110 main_v99 main_v111 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v111 main_v112 (broadcastInDim S500000x1 ![0] bcast_S500000_S500000x1_0 : (⟨S500000, .i32⟩ : BufTy).Contents (Elt F) → (⟨S500000x1, .i32⟩ : BufTy).Contents (Elt F)),
    binary main_v95 main_v112 main_v113 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    binary main_v106 main_v113 main_v114 (mulf : (⟨S500000x64, .f32⟩ : BufTy).Contents (Elt F) → (⟨S500000x64, .f32⟩ : BufTy).Contents (Elt F) → (⟨S500000x64, .f32⟩ : BufTy).Contents (Elt F)),
    binary main_v114 main_arg8 main_v115 ((fun l r => Host.dotGeneral dot_S500000x64_S64x1_S500000x1_1_0_0_1_n_n none l r) : (⟨S500000x64, .f32⟩ : BufTy).Contents (Elt F) → (⟨S64x1, .f32⟩ : BufTy).Contents (Elt F) → (⟨S500000x1, .f32⟩ : BufTy).Contents (Elt F)),
    unary main_arg9 main_v116 (broadcastInDim S1x1 ![1] bcast_S1_S1x1_1 : (⟨S1, .f32⟩ : BufTy).Contents (Elt F) → (⟨S1x1, .f32⟩ : BufTy).Contents (Elt F)),
    unary main_v116 main_v117 (broadcastInDim S500000x1 ![0, 1] bcast_S1x1_S500000x1_0_1 : (⟨S1x1, .f32⟩ : BufTy).Contents (Elt F) → (⟨S500000x1, .f32⟩ : BufTy).Contents (Elt F)),
    binary main_v115 main_v117 main_v118 (addf : (⟨S500000x1, .f32⟩ : BufTy).Contents (Elt F) → (⟨S500000x1, .f32⟩ : BufTy).Contents (Elt F) → (⟨S500000x1, .f32⟩ : BufTy).Contents (Elt F)),
    reshape main_v118 main_v119 rfl shapeCasts_S500000x1_S500000,
    unary main_arg3 main_v120 ((extractStridedSlice S1x500000 ![0, 0] · slices_S2x500000_S1x500000_0_0) : (⟨S2x500000, .i32⟩ : BufTy).Contents (Elt F) → (⟨S1x500000, .i32⟩ : BufTy).Contents (Elt F)),
    reshape main_v120 main_v121 rfl shapeCasts_S1x500000_S500000,
    unary main_arg3 main_v122 ((extractStridedSlice S1x500000 ![1, 0] · slices_S2x500000_S1x500000_1_0) : (⟨S2x500000, .i32⟩ : BufTy).Contents (Elt F) → (⟨S1x500000, .i32⟩ : BufTy).Contents (Elt F)),
    reshape main_v122 main_v123 rfl shapeCasts_S1x500000_S500000,
    nullary main_c_24 (constantI S_ 32 0#32),
    unary main_c_24 main_v124 (broadcastInDim S500000 ![] bcast_S_S500000 : (⟨S_, .i32⟩ : BufTy).Contents (Elt F) → (⟨S500000, .i32⟩ : BufTy).Contents (Elt F)),
    binary main_v121 main_v124 main_v125 (cmpi .slt : (⟨S500000, .i32⟩ : BufTy).Contents (Elt F) → (⟨S500000, .i32⟩ : BufTy).Contents (Elt F) → (⟨S500000, .i1⟩ : BufTy).Contents (Elt F)),
    nullary main_c_25 (constantI S_ 32 100000#32),
    unary main_c_25 main_v126 (broadcastInDim S500000 ![] bcast_S_S500000 : (⟨S_, .i32⟩ : BufTy).Contents (Elt F) → (⟨S500000, .i32⟩ : BufTy).Contents (Elt F)),
    binary main_v121 main_v126 main_v127 (addi : (⟨S500000, .i32⟩ : BufTy).Contents (Elt F) → (⟨S500000, .i32⟩ : BufTy).Contents (Elt F) → (⟨S500000, .i32⟩ : BufTy).Contents (Elt F)),
    ternary main_v125 main_v127 main_v121 main_v128 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v128 main_v129 (broadcastInDim S500000x1 ![0] bcast_S500000_S500000x1_0 : (⟨S500000, .i32⟩ : BufTy).Contents (Elt F) → (⟨S500000x1, .i32⟩ : BufTy).Contents (Elt F)),
    binary main_v95 main_v129 main_v130 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    nullary main_c_26 (constantI S_ 32 0#32),
    unary main_c_26 main_v131 (broadcastInDim S500000 ![] bcast_S_S500000 : (⟨S_, .i32⟩ : BufTy).Contents (Elt F) → (⟨S500000, .i32⟩ : BufTy).Contents (Elt F)),
    binary main_v123 main_v131 main_v132 (cmpi .slt : (⟨S500000, .i32⟩ : BufTy).Contents (Elt F) → (⟨S500000, .i32⟩ : BufTy).Contents (Elt F) → (⟨S500000, .i1⟩ : BufTy).Contents (Elt F)),
    nullary main_c_27 (constantI S_ 32 100000#32),
    unary main_c_27 main_v133 (broadcastInDim S500000 ![] bcast_S_S500000 : (⟨S_, .i32⟩ : BufTy).Contents (Elt F) → (⟨S500000, .i32⟩ : BufTy).Contents (Elt F)),
    binary main_v123 main_v133 main_v134 (addi : (⟨S500000, .i32⟩ : BufTy).Contents (Elt F) → (⟨S500000, .i32⟩ : BufTy).Contents (Elt F) → (⟨S500000, .i32⟩ : BufTy).Contents (Elt F)),
    ternary main_v132 main_v134 main_v123 main_v135 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v135 main_v136 (broadcastInDim S500000x1 ![0] bcast_S500000_S500000x1_0 : (⟨S500000, .i32⟩ : BufTy).Contents (Elt F) → (⟨S500000x1, .i32⟩ : BufTy).Contents (Elt F)),
    binary main_v95 main_v136 main_v137 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    binary main_v130 main_v137 main_v138 (mulf : (⟨S500000x64, .f32⟩ : BufTy).Contents (Elt F) → (⟨S500000x64, .f32⟩ : BufTy).Contents (Elt F) → (⟨S500000x64, .f32⟩ : BufTy).Contents (Elt F)),
    binary main_v138 main_arg8 main_v139 ((fun l r => Host.dotGeneral dot_S500000x64_S64x1_S500000x1_1_0_0_1_n_n none l r) : (⟨S500000x64, .f32⟩ : BufTy).Contents (Elt F) → (⟨S64x1, .f32⟩ : BufTy).Contents (Elt F) → (⟨S500000x1, .f32⟩ : BufTy).Contents (Elt F)),
    unary main_arg9 main_v140 (broadcastInDim S1x1 ![1] bcast_S1_S1x1_1 : (⟨S1, .f32⟩ : BufTy).Contents (Elt F) → (⟨S1x1, .f32⟩ : BufTy).Contents (Elt F)),
    unary main_v140 main_v141 (broadcastInDim S500000x1 ![0, 1] bcast_S1x1_S500000x1_0_1 : (⟨S1x1, .f32⟩ : BufTy).Contents (Elt F) → (⟨S500000x1, .f32⟩ : BufTy).Contents (Elt F)),
    binary main_v139 main_v141 main_v142 (addf : (⟨S500000x1, .f32⟩ : BufTy).Contents (Elt F) → (⟨S500000x1, .f32⟩ : BufTy).Contents (Elt F) → (⟨S500000x1, .f32⟩ : BufTy).Contents (Elt F)),
    reshape main_v142 main_v143 rfl shapeCasts_S500000x1_S500000 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., reshape_bufs_sub ..⟩

/-! Contents read from, or carried to, a buffer whose type is literally the value's type are the contents. -/
theorem ofBuf_main_v12 (w : (⟨S100000, .i1⟩ : BufTy).Contents (Elt F)) : (TRef.of (T := ⟨S100000, .i1⟩) (sig := sig) main_v12).ofBuf w = w := rfl
theorem toBuf_main_v12 (w : (⟨S100000, .i1⟩ : BufTy).Contents (Elt F)) : (TRef.of (T := ⟨S100000, .i1⟩) (sig := sig) main_v12).toBuf w = w := rfl
theorem ofBuf_main_v13 (w : (⟨S100000, .f32⟩ : BufTy).Contents (Elt F)) : (TRef.of (T := ⟨S100000, .f32⟩) (sig := sig) main_v13).ofBuf w = w := rfl
theorem toBuf_main_v13 (w : (⟨S100000, .f32⟩ : BufTy).Contents (Elt F)) : (TRef.of (T := ⟨S100000, .f32⟩) (sig := sig) main_v13).toBuf w = w := rfl
theorem ofBuf_main_cst_2 (w : (⟨S_, .f32⟩ : BufTy).Contents (Elt F)) : (TRef.of (T := ⟨S_, .f32⟩) (sig := sig) main_cst_2).ofBuf w = w := rfl
theorem toBuf_main_cst_2 (w : (⟨S_, .f32⟩ : BufTy).Contents (Elt F)) : (TRef.of (T := ⟨S_, .f32⟩) (sig := sig) main_cst_2).toBuf w = w := rfl
theorem ofBuf_main_v14 (w : (⟨S100000, .f32⟩ : BufTy).Contents (Elt F)) : (TRef.of (T := ⟨S100000, .f32⟩) (sig := sig) main_v14).ofBuf w = w := rfl
theorem toBuf_main_v14 (w : (⟨S100000, .f32⟩ : BufTy).Contents (Elt F)) : (TRef.of (T := ⟨S100000, .f32⟩) (sig := sig) main_v14).toBuf w = w := rfl
theorem ofBuf_main_v46 (w : (⟨S100000x64, .f32⟩ : BufTy).Contents (Elt F)) : (TRef.of (T := ⟨S100000x64, .f32⟩) (sig := sig) main_v46).ofBuf w = w := rfl
theorem toBuf_main_v46 (w : (⟨S100000x64, .f32⟩ : BufTy).Contents (Elt F)) : (TRef.of (T := ⟨S100000x64, .f32⟩) (sig := sig) main_v46).toBuf w = w := rfl
theorem ofBuf_main_v47 (w : (⟨S100000x64, .f32⟩ : BufTy).Contents (Elt F)) : (TRef.of (T := ⟨S100000x64, .f32⟩) (sig := sig) main_v47).ofBuf w = w := rfl
theorem toBuf_main_v47 (w : (⟨S100000x64, .f32⟩ : BufTy).Contents (Elt F)) : (TRef.of (T := ⟨S100000x64, .f32⟩) (sig := sig) main_v47).toBuf w = w := rfl
theorem ofBuf_main_v60 (w : (⟨S100000, .i1⟩ : BufTy).Contents (Elt F)) : (TRef.of (T := ⟨S100000, .i1⟩) (sig := sig) main_v60).ofBuf w = w := rfl
theorem toBuf_main_v60 (w : (⟨S100000, .i1⟩ : BufTy).Contents (Elt F)) : (TRef.of (T := ⟨S100000, .i1⟩) (sig := sig) main_v60).toBuf w = w := rfl
theorem ofBuf_main_v61 (w : (⟨S100000, .f32⟩ : BufTy).Contents (Elt F)) : (TRef.of (T := ⟨S100000, .f32⟩) (sig := sig) main_v61).ofBuf w = w := rfl
theorem toBuf_main_v61 (w : (⟨S100000, .f32⟩ : BufTy).Contents (Elt F)) : (TRef.of (T := ⟨S100000, .f32⟩) (sig := sig) main_v61).toBuf w = w := rfl
theorem ofBuf_main_cst_12 (w : (⟨S_, .f32⟩ : BufTy).Contents (Elt F)) : (TRef.of (T := ⟨S_, .f32⟩) (sig := sig) main_cst_12).ofBuf w = w := rfl
theorem toBuf_main_cst_12 (w : (⟨S_, .f32⟩ : BufTy).Contents (Elt F)) : (TRef.of (T := ⟨S_, .f32⟩) (sig := sig) main_cst_12).toBuf w = w := rfl
theorem ofBuf_main_v62 (w : (⟨S100000, .f32⟩ : BufTy).Contents (Elt F)) : (TRef.of (T := ⟨S100000, .f32⟩) (sig := sig) main_v62).ofBuf w = w := rfl
theorem toBuf_main_v62 (w : (⟨S100000, .f32⟩ : BufTy).Contents (Elt F)) : (TRef.of (T := ⟨S100000, .f32⟩) (sig := sig) main_v62).toBuf w = w := rfl
theorem ofBuf_main_v94 (w : (⟨S100000x64, .f32⟩ : BufTy).Contents (Elt F)) : (TRef.of (T := ⟨S100000x64, .f32⟩) (sig := sig) main_v94).ofBuf w = w := rfl
theorem toBuf_main_v94 (w : (⟨S100000x64, .f32⟩ : BufTy).Contents (Elt F)) : (TRef.of (T := ⟨S100000x64, .f32⟩) (sig := sig) main_v94).toBuf w = w := rfl
theorem ofBuf_main_v95 (w : (⟨S100000x64, .f32⟩ : BufTy).Contents (Elt F)) : (TRef.of (T := ⟨S100000x64, .f32⟩) (sig := sig) main_v95).ofBuf w = w := rfl
theorem toBuf_main_v95 (w : (⟨S100000x64, .f32⟩ : BufTy).Contents (Elt F)) : (TRef.of (T := ⟨S100000x64, .f32⟩) (sig := sig) main_v95).toBuf w = w := rfl

set_option maxRecDepth 8192 in
set_option maxHeartbeats 72800000 in
/-- On every device, at any float instance, from any memory with zero counters: every weakly fair execution of the
    reference program terminates; the first result holds the link scores of the positive links and the second those of
    the negative links, both over the node embeddings after the two layers; the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v119) = scores (F := F) (embed (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9))
      ∧ r.2.mem ((c.tc : Thread nD τ).loc main_v143) = scores (F := F) (embed (F := F) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg3)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v119).trans (by after_results_simp; simp only [Cert.LibTRef.ofBuf_toBuf, ofBuf_main_v12, toBuf_main_v12, ofBuf_main_v13, toBuf_main_v13, ofBuf_main_cst_2, toBuf_main_cst_2, ofBuf_main_v14, toBuf_main_v14, ofBuf_main_v46, toBuf_main_v46, ofBuf_main_v47, toBuf_main_v47, ofBuf_main_v60, toBuf_main_v60, ofBuf_main_v61, toBuf_main_v61, ofBuf_main_cst_12, toBuf_main_cst_12, ofBuf_main_v62, toBuf_main_v62, ofBuf_main_v94, toBuf_main_v94, ofBuf_main_v95, toBuf_main_v95]; rfl),
      (h c main_v143).trans (by after_results_simp; simp only [Cert.LibTRef.ofBuf_toBuf, ofBuf_main_v12, toBuf_main_v12, ofBuf_main_v13, toBuf_main_v13, ofBuf_main_cst_2, toBuf_main_cst_2, ofBuf_main_v14, toBuf_main_v14, ofBuf_main_v46, toBuf_main_v46, ofBuf_main_v47, toBuf_main_v47, ofBuf_main_v60, toBuf_main_v60, ofBuf_main_v61, toBuf_main_v61, ofBuf_main_cst_12, toBuf_main_cst_12, ofBuf_main_v62, toBuf_main_v62, ofBuf_main_v94, toBuf_main_v94, ofBuf_main_v95, toBuf_main_v95]; rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.Hand

end
-- ==== Proof.lean ====
/-
  A two-layer graph convolution with a link decoder, computed by eight tiled kernels among host operations, against
  the same network written with whole-array operations. At the ideal values the two programs compute the same
  extended reals entry by entry, for every input — no finiteness is used:

  * each projection kernel multiplies a block of rows by the whole weight matrix, and a product accumulated into zeros
    is the plain sum of products, which is the host's matrix product (a change of float format is the identity);
  * each scaling kernel multiplies row r of the gathered messages by entry r of the per-edge factor, laid out as a
    column — the host's product with the factor broadcast along the rows;
  * each bias kernel adds the bias row to every row and takes the maximum with zero — the host's sum with the broadcast
    bias, and its relu;
  * each decoder kernel sums, along a row, the product of the two ends' embeddings times the weight row, and adds the
    bias number — the host's product of the entrywise product with the weight column, plus the broadcast bias.

  The gathers, the scatter-sums, the degree normalisation and every index computation are the same host operations in
  both programs and are never opened: once a kernel's output array is the reference's value, so is everything the next
  host stretch computes from it.
-/
import proofs.«174922_j2516850835926_2_alg».proof.Defs
import proofs.«174922_j2516850835926_2_alg».proof.Proof.Gen.Kernel
import proofs.«174922_j2516850835926_2_alg».proof.Proof.Gen.Kernel.Frame
import proofs.«174922_j2516850835926_2_alg».proof.Proof.Gen.KernelIdeal
import proofs.«174922_j2516850835926_2_alg».proof.Proof.Gen.KernelIdeal.Frame
import proofs.«174922_j2516850835926_2_alg».proof.Proof.Gen.ReferenceIdeal
import proofs.«174922_j2516850835926_2_alg».proof.Proof.Gen.Pre_finite_inputs
import proofs.«174922_j2516850835926_2_alg».proof.Proof.KRun
import proofs.«174922_j2516850835926_2_alg».proof.Proof.KVal
import proofs.«174922_j2516850835926_2_alg».proof.Proof.RefRun
import Idealize.ShloMosaic.Adequacy
import Idealize.ShloMosaic.Init

set_option maxRecDepth 16384

noncomputable section

namespace Cert.Proof

open Idealize.ShloMosaic Idealize.SL.Sem

/-- The kernel program as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the two results dropped. -/
theorem frame_ri : Cert.frame_ReferenceIdeal := fun m ρ _ =>
  (θ_run Cert.ReferenceIdeal.defs _ _).mono (fun _ h c => (h c).2.2) (Cert.ReferenceIdeal.Hand.run (F := Ideal) m ρ)

/-- The ideal pass rewrote nothing. -/
theorem preserves : Cert.preserves_Kernel_KernelIdeal := trivial

/-- From memories agreeing on the arguments both programs end with the positive links' scores in the first result and
    the negative links' scores in the second, over the same node embeddings. -/
theorem algebraic : Cert.algebraic_KernelIdeal_ReferenceIdeal := by
  intro m ρ m' ρ' _ hagree
  refine ⟨fun c => Cert.KernelIdeal.Gen.W18 m ρ c (Proc.devRef .tc Cert.KernelIdeal.main_v85),
    fun c => Cert.KernelIdeal.Gen.W18 m ρ c (Proc.devRef .tc Cert.KernelIdeal.main_v103),
    Cert.KernelIdeal.Hand.run_boundary m ρ, ?_⟩
  refine (θ_run Cert.ReferenceIdeal.defs _ _).mono (fun _ h c => ?_) (Cert.ReferenceIdeal.Hand.run (F := Ideal) m' ρ')
  obtain ⟨h0, h1, hargs⟩ := h c
  obtain ⟨a0, a1, a2, a3, a4, a5, a6, a7, a8, a9⟩ := hagree c
  refine ⟨h0.trans ?_, h1.trans ?_, hargs⟩
  · rw [a0, a1, a2, a4, a5, a6, a7, a8, a9]
    exact (Cert.KernelIdeal.Hand.out0 m ρ c).symm
  · rw [a0, a1, a3, a4, a5, a6, a7, a8, a9]
    exact (Cert.KernelIdeal.Hand.out1 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
